-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S4x1x8192 : Shape := ⟨3, ![4, 1, 8192]⟩
abbrev S2048x3 : Shape := ⟨2, ![2048, 3]⟩
abbrev S1024x3 : Shape := ⟨2, ![1024, 3]⟩
abbrev S2048x1 : Shape := ⟨2, ![2048, 1]⟩
abbrev S1x1024 : Shape := ⟨2, ![1, 1024]⟩
abbrev S1x1x1024 : Shape := ⟨3, ![1, 1, 1024]⟩
abbrev S3x1024 : Shape := ⟨2, ![3, 1024]⟩
abbrev S2048x1024 : Shape := ⟨2, ![2048, 1024]⟩
abbrev S2048 : Shape := ⟨1, ![2048]⟩
abbrev S1024 : Shape := ⟨1, ![1024]⟩
abbrev S4x8192 : Shape := ⟨2, ![4, 8192]⟩

abbrev nBuf : Space → Nat
  | .hbm => 34
  | .vmem => 12
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x3, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x1, .f32⟩
  | .hbm, ⟨12, _⟩ => ⟨S4x1x8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S4x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S2048x3, .f32⟩
  | .local _ .vmem, ⟨1, _⟩ => ⟨S2048x3, .f32⟩
  | .local _ .vmem, ⟨2, _⟩ => ⟨S1024x3, .f32⟩
  | .local _ .vmem, ⟨3, _⟩ => ⟨S1024x3, .f32⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S2048x1, .f32⟩
  | .local _ .vmem, ⟨9, _⟩ => ⟨S2048x1, .f32⟩
  | .local _ .vmem, ⟨10, _⟩ => ⟨S1x1x1024, .f32⟩
  | .local _ .vmem, ⟨11, _⟩ => ⟨S1x1x1024, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S2048x3_S2048x3_0_0 : ∀ a, (![0, 0] : Fin 2 → Nat) a + S2048x3.size a ≤ S2048x3.size a
  h_S2048x3 : 0 < S2048x3.numel
  inb_S1024x3_S1024x3_0_0 : ∀ a, (![0, 0] : Fin 2 → Nat) a + S1024x3.size a ≤ S1024x3.size a
  h_S1024x3 : 0 < S1024x3.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x3_p1_0_S3x1024 : S1024x3.Transposes [1, 0] S3x1024
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S2048_S2048x1 : S2048.ShapeCasts S2048x1
  reduces_S2048x1024_S1024 : S2048x1024.Reduces [0] S1024
  shapeCasts_S1024_S1x1024 : S1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S8192x1_S8192 : S8192x1.ShapeCasts S8192
  bcast_S_S8192 : S_.BroadcastsInDim S8192 (![] : Fin 0 → Fin S8192.rank)
  shapeCasts_S4x1x8192_S4x8192 : S4x1x8192.ShapeCasts S4x8192
  reducesTo_S4x8192_S8192_d0 : S4x8192.ReducesTo [0] S8192
  reducesTo_S8192_S_d0 : S8192.ReducesTo [0] S_
  dot_S2048x3_S3x1024_S2048x1024_1_0_0_1_n_n_wf : DotDims.WF S2048x3 S3x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S8192x3.size a
  hwx0_0 : ∀ i : grid0.Coords, EltTy.bits .f32 = 32 ∨ (Rect.block (s := S8192x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S8192x3.size a
  hwx0_1 : ∀ i : grid0.Coords, EltTy.bits .f32 = 32 ∨ (Rect.block (s := S8192x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S4x1x8192.size a
  hwx0_5 : ∀ i : grid0.Coords, EltTy.bits .f32 = 32 ∨ (Rect.block (s := S4x1x8192) S1x1x1024.size (cc0_transform_5 i) (hinb0_5 i)).WholeWords (EltTy.packing .f32)

variable [Facts₀]

def dot_S2048x3_S3x1024_S2048x1024_1_0_0_1_n_n : DotDims S2048x3 S3x1024 S2048x1024 where
  lhsContracting := [1]
  rhsContracting := [0]
  lhsNonContracting := [0]
  rhsNonContracting := [1]
  lhsBatch := []
  rhsBatch := []
  wf := dot_S2048x3_S3x1024_S2048x1024_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x3 : Shape := ⟨2, ![8192, 3]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192 : Shape := ⟨1, ![8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x1x3, .f32⟩
  | .hbm, ⟨3, _⟩ => ⟨S1x8192x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S8192x8192x3, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  reducesTo_S8192x8192_S8192_d1 : S8192x8192.ReducesTo [1] S8192
  reducesTo_S8192_S_d0 : S8192.ReducesTo [0] S_
  reducesTo_S8192x8192_S8192_d0 : S8192x8192.ReducesTo [0] S8192

variable [Facts₀]

class Facts : Prop extends Facts₀ where

variable [Facts]
-- ==== Proof.LibMinOn.lean ====
/-
  GREATEST LOWER BOUNDS OF FINITE FAMILIES OF EXTENDED REALS, FOR MINIMUM REDUCTIONS.
  A value claim at the ideal float values that meets minima - a kernel's vector.multi_reduction <minimumf>, a host
  reduce by minimum, minima accumulated across grid points, minima of partial minima - is easiest carried by the
  UNIVERSAL PROPERTY of the minimum instead of any fold order: IsMinOn p f x says c ≤ x iff c ≤ f k for every index k
  with p k. This file has the predicate and its laws (uniqueness, lower bound, change of index set or values, the empty
  family, the minimum of two bounds bounds the union, a fold of min from the top element, minima of minima, transport
  along a map of indices); the reading of a one-axis minimum reduction from the top element, in a kernel
  (multiReduction_minimumf_isMinOn) and on the host (hostReduce_minimumf_isMinOn), as the greatest lower bound over the
  reduced axis; the monotonicity of the ideal square root (sqrt_mono); and the exchange of the square root after a clamp
  at zero with the minimum of finitely many non-negative values (sqrt_max_isMinOn): sqrt (max (min_k f k) 0) is the
  minimum of the sqrt (f k), which is what lets a kernel defer clamp and square root past its min-reductions.
-/
import Idealize.ShloMosaic.PureOps.Ideal
import Idealize.ShloMosaic.PureOps.Ideal.Laws
import Idealize.ShloMosaic.PureOps.Reduce

noncomputable section

namespace Cert.Lib.MinOn

open Idealize.ShloMosaic

/-- x is the greatest lower bound of the values f k over the indices k with p k: the minimum of a finite family
    (or the top element of an empty one), stated without naming the order a reduction folds in. -/
def IsMinOn {ι : Type} (p : ι → Prop) (f : ι → EReal) (x : EReal) : Prop :=
  ∀ c : EReal, c ≤ x ↔ ∀ k, p k → c ≤ f k

namespace IsMinOn

variable {ι : Type} {p q : ι → Prop} {f g : ι → EReal} {x y : EReal}

/-- A greatest lower bound is unique. -/
theorem unique (hx : IsMinOn p f x) (hy : IsMinOn p f y) : x = y :=
  eq_of_forall_le_iff fun c => (hx c).trans (hy c).symm

/-- It is a lower bound. -/
theorem le (hx : IsMinOn p f x) {k : ι} (hk : p k) : x ≤ f k := (hx x).mp le_rfl k hk

/-- The same set of indices, the same values on it. -/
theorem congr (hx : IsMinOn p f x) (hp : ∀ k, p k ↔ q k) (hf : ∀ k, p k → f k = g k) : IsMinOn q g x := fun c =>
  (hx c).trans ⟨fun h k hk => hf k ((hp k).mpr hk) ▸ h k ((hp k).mpr hk), fun h k hk => (hf k hk).symm ▸ h k ((hp k).mp hk)⟩

/-- Nothing to bound: the top element. -/
theorem empty (hp : ∀ k, ¬p k) : IsMinOn p f ⊤ := fun _ => ⟨fun _ k hk => absurd hk (hp k), fun _ => le_top⟩

/-- The minimum of two greatest lower bounds bounds the union. -/
theorem min (hx : IsMinOn p f x) (hy : IsMinOn q f y) : IsMinOn (fun k => p k ∨ q k) f (Min.min x y) := fun c => by
  rw [le_min_iff, hx c, hy c]
  exact ⟨fun h k hk => hk.elim (h.1 k) (h.2 k), fun h => ⟨fun k hk => h k (.inl hk), fun k hk => h k (.inr hk)⟩⟩

/-- A fold of min from the top element over a finite set. -/
theorem fold (S : Finset ι) (f : ι → EReal) : IsMinOn (fun k => k ∈ S) f (S.fold Min.min ⊤ f) := fun c => by
  rw [Finset.le_fold_min]; exact ⟨fun h => h.2, fun h => ⟨le_top, h⟩⟩

/-- Minima of minima: if each g a is the greatest lower bound of f over r a, the greatest lower bound of g over q
    is that of f over the union of the r a, q a. -/
theorem iUnion {κ : Type} {q : κ → Prop} {r : κ → ι → Prop} {g : κ → EReal} (hg : ∀ a, q a → IsMinOn (r a) f (g a))
    (hx : IsMinOn q g x) : IsMinOn (fun k => ∃ a, q a ∧ r a k) f x := fun c => by
  rw [hx c]
  exact ⟨fun h k ⟨a, ha, hk⟩ => ((hg a ha) c).mp (h a ha) k hk, fun h a ha => ((hg a ha) c).mpr fun k hk => h k ⟨a, ha, hk⟩⟩

/-- Along a map of index sets: the greatest lower bound of f after e over q is that of f over the image. -/
theorem map {κ : Type} {q : κ → Prop} (e : κ → ι) (hx : IsMinOn q (fun j => f (e j)) x) :
    IsMinOn (fun k => ∃ j, q j ∧ e j = k) f x := fun c => by
  rw [hx c]
  exact ⟨fun h k ⟨j, hj, hk⟩ => hk ▸ h j hj, fun h j hj => h (e j) ⟨j, hj, rfl⟩⟩

end IsMinOn

/-- A kernel's minimum reduction over ONE axis, from an accumulator word that denotes the top element, read at a result
    index j: the greatest lower bound of the source over the reduced axis's coordinates (the source index is j with
    the coordinate inserted). -/
theorem multiReduction_minimumf_isMinOn {φ : FTy} {s t : Shape} {a : Fin s.rank} (src : FVec Ideal s φ) (acc : BitVec φ.bits)
    (h : s.Reduces [a] t) (hφ : FKind.Formats φ) (hacc : acc = FKind.minimumf.neutral φ hφ)
    (htop : Ideal.ofBits φ acc = (⊤ : EReal)) (j : t.Idx) :
    IsMinOn (fun _ : Fin (s.size a) => True) (fun k => src (h.lift j k))
      (multiReduction .minimumf [a] t src acc h hφ hacc j) := by
  have e : multiReduction .minimumf [a] t src acc h hφ hacc j
      = (Finset.univ : Finset (Fin (s.size a))).fold min (⊤ : EReal) (fun k => src (h.lift j k)) := by
    refine (multiReduction_minimumf_eq_fold src acc h hφ hacc j).trans ?_
    refine (h.fold_filter_drop_single _ _ src j).trans ?_
    exact congrArg (fun z : EReal => (Finset.univ : Finset (Fin (s.size a))).fold min z (fun k => src (h.lift j k))) htop
  rw [e]
  exact (IsMinOn.fold Finset.univ _).congr (fun _ => ⟨fun _ => trivial, fun _ => Finset.mem_univ _⟩) (fun _ _ => rfl)

/-- The host's reduce by minimum over ONE axis, from an initial value that is the top element, read at a result index
    j: the same greatest lower bound (h' is the reduce's own shape fact, h the witness at the same shapes that names
    the inserted index). -/
theorem hostReduce_minimumf_isMinOn {φ : FTy} {s t u : Shape} {a : Fin s.rank} (x : FVec Ideal s φ) (init : FVec Ideal u φ)
    (h' : s.ReducesTo [a] t) (h : s.Reduces [a] t) (hu : 0 < u.numel)
    (htop : init (Shape.Idx.first hu) = (⊤ : EReal)) (j : t.Idx) :
    IsMinOn (fun _ : Fin (s.size a) => True) (fun k => x (h.lift j k))
      (Host.reduce (FloatOps.minimumf (F := Ideal) (φ := φ)) x init h' hu j) := by
  have e : Host.reduce (FloatOps.minimumf (F := Ideal) (φ := φ)) x init h' hu j
      = (Finset.univ : Finset (Fin (s.size a))).fold min (⊤ : EReal) (fun k => x (h.lift j k)) := by
    refine (Host.reduce_eq_fold_single (FloatOps.minimumf (F := Ideal) (φ := φ)) x init h' h hu j).trans ?_
    exact congrArg (fun z : EReal => (Finset.univ : Finset (Fin (s.size a))).fold min z (fun k => x (h.lift j k))) htop
  rw [e]
  exact (IsMinOn.fold Finset.univ _).congr (fun _ => ⟨fun _ => trivial, fun _ => Finset.mem_univ _⟩) (fun _ _ => rfl)

/-- The square root of the extended reals is monotone: bottom below everything, top above everything, and on
    the reals either the left argument is negative (value bottom) or both are non-negative and the real square
    root is monotone. -/
theorem sqrt_mono : Monotone Ideal.sqrt := by
  intro a b hab
  induction a using EReal.rec with
  | bot => simp
  | top =>
    have hb : b = ⊤ := top_le_iff.mp hab
    subst hb; exact le_rfl
  | coe r =>
    induction b using EReal.rec with
    | bot => simp at hab
    | top => simp
    | coe s =>
      have hrs : r ≤ s := EReal.coe_le_coe_iff.mp hab
      simp only [Ideal.sqrt_coe]
      split_ifs with h1 h2 h2
      · exact le_rfl
      · exact bot_le
      · exact absurd (lt_of_le_of_lt hrs h2) h1
      · exact EReal.coe_le_coe_iff.mpr (Real.sqrt_le_sqrt hrs)

/-- The square root, after a clamp at zero, of the minimum of finitely many values that are all non-negative is
    the minimum of their square roots: the minimum of a non-empty finite family is attained, at a non-negative
    value where the clamp is the identity; an empty family has minimum top on both sides. -/
theorem sqrt_max_isMinOn {ι : Type} [Finite ι] (f g : ι → EReal) (hfg : ∀ k, f k = g k) (hg : ∀ k, 0 ≤ g k)
    {x y : EReal} (hx : IsMinOn (fun _ => True) f x)
    (hy : IsMinOn (fun _ => True) (fun k => Ideal.sqrt (g k)) y) : Ideal.sqrt (max x 0) = y := by
  refine IsMinOn.unique (p := fun _ => True) (f := fun k => Ideal.sqrt (g k)) ?_ hy
  intro c
  constructor
  · intro hc k _
    have h1 : x ≤ g k := hfg k ▸ hx.le (k := k) trivial
    exact hc.trans (sqrt_mono (max_le h1 (hg k)))
  · intro hc
    rcases isEmpty_or_nonempty ι with he | hne
    · have hxt : x = ⊤ := hx.unique (IsMinOn.empty fun k => (he.false k).elim)
      subst hxt
      simp
    · obtain ⟨k0, hk0⟩ : ∃ k0, x = f k0 := by
        cases nonempty_fintype ι
        have hx' : x = Finset.univ.inf' Finset.univ_nonempty f :=
          eq_of_forall_le_iff fun c => by
            rw [hx c, Finset.le_inf'_iff]; simp
        obtain ⟨k0, _, hk0⟩ := Finset.exists_mem_eq_inf' Finset.univ_nonempty f
        exact ⟨k0, hx'.trans hk0⟩
      have hx0 : max x 0 = g k0 := by rw [hk0, hfg]; exact max_eq_left (hg k0)
      rw [hx0]; exact hc k0 trivial

end Cert.Lib.MinOn

end
-- ==== Proof.Spec.lean ====
/-
  The mathematics both programs compute, stated once over the two point clouds P, L (8192 points of R^3 each, as
  arrays of extended reals): the squared distance of a pair of points in its two spellings - expanded by the Gram
  identity |p|^2 + |l|^2 - 2 p.l, and summed as the squares of the coordinate differences -, and the common tail (two
  means over 8192 entries, added). Minima are carried by their universal property (the imported predicate IsMinOn).
-/
import proofs.«124197_j32186484916784_2_alg».proof.Proof.LibMinOn
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The shape of a point cloud: 8192 points, 3 coordinates. -/
abbrev Pts : Shape := ⟨2, ![8192, 3]⟩
/-- A vector with one entry per point, and a scalar. -/
abbrev Vec8192 : Shape := ⟨1, ![8192]⟩
abbrev Scal : Shape := ⟨0, ![]⟩

/-- The squared distance of point n of P and point m of L, expanded: |p|^2 + |l|^2 - 2 p.l (the two squared
    norms as host sums from zero, the factor 2 as its binary word). -/
def gram (P L : Pts.Idx → EReal) (n m : Fin 8192) : EReal :=
  ((0 + ∑ d : Fin 3, P (ix2 n d) * P (ix2 n d)) + (0 + ∑ d : Fin 3, L (ix2 m d) * L (ix2 m d)))
    - Ideal.ofBits .f32 0x40000000#32 * ∑ d : Fin 3, P (ix2 n d) * L (ix2 m d)

/-- The same squared distance as the sum of the squared coordinate differences (a host sum from zero). -/
def dist2 (P L : Pts.Idx → EReal) (n m : Fin 8192) : EReal :=
  0 + ∑ d : Fin 3, (P (ix2 n d) - L (ix2 m d)) * (P (ix2 n d) - L (ix2 m d))

/-- The mean of 8192 entries as both programs take it: the host sum from zero, divided by the word of 8192. -/
def mean (h : Vec8192.ReducesTo [0] Scal) (hu : 0 < Scal.numel) (v : FVec Ideal Vec8192 .f32) : FVec Ideal Scal .f32 :=
  Host.divf (Host.reduceAdd v (constant (F := Ideal) Scal .f32 0x00000000#32) h hu) (constant (F := Ideal) Scal .f32 0x46000000#32)

/-- The result of both programs: the mean of the rows' entries plus the mean of the columns' entries. -/
def total (h : Vec8192.ReducesTo [0] Scal) (hu : 0 < Scal.numel) (r c : FVec Ideal Vec8192 .f32) : FVec Ideal Scal .f32 :=
  addf (mean h hu r) (mean h hu c)

end Cert.Chamfer

end
-- ==== Proof.Dist.lean ====
/-
  The pure extended-real mathematics of the squared distance: the word of the factor two, the Gram expansion
  |p|^2 + |l|^2 - 2 p.l against the sum of squared coordinate differences (on real entries), and its sign.
-/
import proofs.«124197_j32186484916784_2_alg».proof.Proof.Spec

noncomputable section

namespace Cert.Chamfer

open Idealize.ShloMosaic Idealize.ShloMosaic.ValueIdx

/-- The binary word 0x40000000 denotes the real number two. -/
theorem two_word : Ideal.ofBits .f32 0x40000000#32 = (2 : EReal) := by
  simp [Ideal.ofBits, Ideal.ieee, -EReal.coe_mul]; norm_num; norm_cast

/-- On real entries the expanded form is a coerced real: the polynomial identity
    (a^2 + b^2) - 2 a b = (a - b)^2, coordinate by coordinate. -/
theorem gram_eq_dist2 (P L : Pts.Idx → EReal) (hP : ∀ i, ∃ r : ℝ, P i = (r : EReal))
    (hL : ∀ i, ∃ r : ℝ, L i = (r : EReal)) (n m : Fin 8192) : gram P L n m = dist2 P L n m := by
  choose p hp using hP
  choose l hl using hL
  have h2 : (2 : EReal) = ((2 : ℝ) : EReal) := by norm_cast
  unfold gram dist2
  rw [two_word, h2]
  simp only [Fin.sum_univ_three, hp, hl, zero_add]
  simp only [← EReal.coe_mul, ← EReal.coe_add, ← EReal.coe_sub]
  rw [EReal.coe_eq_coe_iff]
  ring

/-- A sum of squares of real numbers is non-negative. -/
theorem dist2_nonneg (P L : Pts.Idx → EReal) (hP : ∀ i, ∃ r : ℝ, P i = (r : EReal))
    (hL : ∀ i, ∃ r : ℝ, L i = (r : EReal)) (n m : Fin 8192) : 0 ≤ dist2 P L n m := by
  choose p hp using hP
  choose l hl using hL
  unfold dist2
  simp only [Fin.sum_univ_three, hp, hl, zero_add]
  simp only [← EReal.coe_mul, ← EReal.coe_add, ← EReal.coe_sub]
  rw [EReal.coe_nonneg]
  exact add_nonneg (add_nonneg (mul_self_nonneg _) (mul_self_nonneg _)) (mul_self_nonneg _)

end Cert.Chamfer

end
-- ==== Proof.Finite.lean ====
/-
  From the printed precondition to real entries. The precondition is the conjunction of two tests "every entry
  has absolute value below plus infinity", each a reduction by "and" of an array of comparisons; read back, it
  says of each entry x of either array that max x (-x) is strictly below the top element, and an extended real
  with that property is neither top nor bottom: it is a real number.
-/
import proofs.«124197_j32186484916784_2_alg».proof.Defs
import proofs.«124197_j32186484916784_2_alg».proof.Proof.Gen.Pre_finite_inputs
import Idealize.ShloMosaic.PureOps.Ideal.Laws
import Idealize.ShloMosaic.Lib.ValueIdx
import Idealize.ShloMosaic.Lib.ReduceAll

noncomputable section

namespace Cert.Chamfer

open Idealize.ShloMosaic Idealize.ShloMosaic.ValueIdx

/-- A shape of rank zero has exactly one index. -/
instance subsingleton_scalar_idx : Subsingleton Cert.Pre_finite_inputs.S_.Idx :=
  ⟨fun _ _ => funext fun d => d.elim0⟩

/-- The binary word 0x7F800000 denotes the top element, plus infinity. -/
theorem inf_word : Ideal.ofBits .f32 0x7F800000#32 = (⊤ : EReal) := by
  simp [Ideal.ofBits, Ideal.ieee]

/-- A one-bit word made from a truth value is one exactly when the truth value is true. -/
theorem ofBool_eq_one_iff (b : Bool) : BitVec.ofBool b = 1#1 ↔ b = true := by cases b <;> decide

/-- An extended real whose absolute value max x (-x) is strictly below the top element is a real number:
    at bottom the negation is top, at top the value itself is. -/
theorem real_of_abs_lt_top (x : EReal) (h : max x (-x) < ⊤) : ∃ r : ℝ, x = (r : EReal) := by
  induction x using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- The element test of the precondition, read back: the comparison "absolute value below the word of plus
    infinity" being one says the entry is a real number. -/
theorem real_of_cmp (x : EReal)
    (h : Ideal.cmp .olt (max x (-x)) (Ideal.ofBits .f32 0x7F800000#32) = 1#1) : ∃ r : ℝ, x = (r : EReal) := by
  rw [inf_word] at h
  have hc : Ideal.cmp .olt (max x (-x)) ⊤ = BitVec.ofBool (decide (max x (-x) < ⊤)) := rfl
  rw [hc, ofBool_eq_one_iff, decide_eq_true_eq] at h
  exact real_of_abs_lt_top x h

/-- The precondition, all ones, makes every entry of both arrays a real number. -/
theorem finite_of_pre [Cert.Pre_finite_inputs.Facts]
    (x y : FVec Ideal Cert.Pre_finite_inputs.S8192x3 .f32)
    (h : Cert.Pre_finite_inputs.fn (F := Ideal) x y = fun _ => 1#1) :
    (∀ i, ∃ r : ℝ, x i = (r : EReal)) ∧ (∀ i, ∃ r : ℝ, y i = (r : EReal)) := by
  have e := congrFun h ix0
  dsimp only [Cert.Pre_finite_inputs.fn] at e
  obtain ⟨e1, e2⟩ := IntOp.andi_eq_one.1 e
  refine ⟨fun i => ?_, fun i => ?_⟩
  · have hi := Host.reduce_andi_all _ _ _ _ ix0 e1 i
    exact real_of_cmp (x i) hi
  · have hi := Host.reduce_andi_all _ _ _ _ ix0 e2 i
    exact real_of_cmp (y i) hi

open Idealize.SL.Sem in
/-- The precondition of the idealized kernel's launch memory makes both argument arrays real, on every device. -/
theorem finite_of_pre_kernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
    (∀ i, ∃ r : ℝ, m ((c.tc : Thread Cert.KernelIdeal.nD Cert.KernelIdeal.τ).loc Cert.KernelIdeal.main_arg1) i = (r : EReal)) :=
  finite_of_pre _ _ (h c)

end Cert.Chamfer

end
-- ==== Proof.RefValue.lean ====
/-
  The reference program's side of the Chamfer loss, read against the common definitions: the sum of the squared
  coordinate differences of a pair of points is dist2; the minimum over a row or a column of the square roots is the
  greatest lower bound of that family; the tail (two means, added) is total; and the reference's run ends at total
  of those two vectors of minima.
-/
import proofs.«124197_j32186484916784_2_alg».proof.Proof.Spec
import proofs.«124197_j32186484916784_2_alg».proof.Proof.Gen.ReferenceIdeal.Read

noncomputable section

namespace Cert.Chamfer.Ref

open Cert.Lib.MinOn

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The squared distance of a pair of points -/

/-- Through the two broadcasts, entry (n, m, k) of the first operand of the difference is coordinate k of point n of
    the first cloud. -/
theorem idx_arg0 (n m : Fin 8192) (k : Fin 3) : idx_main_v0 (idx_main_v2 (idx_main_v6 (ix2 n m) k)) = ix2 n k :=
  funext fun a => Fin.ext (by match a with | ⟨0, _⟩ => rfl | ⟨1, _⟩ => rfl)

/-- And entry (n, m, k) of the second operand is coordinate k of point m of the second cloud. -/
theorem idx_arg1 (n m : Fin 8192) (k : Fin 3) : idx_main_v1 (idx_main_v3 (idx_main_v6 (ix2 n m) k)) = ix2 m k :=
  funext fun a => Fin.ext (by match a with | ⟨0, _⟩ => rfl | ⟨1, _⟩ => rfl)

/-- The sum over the coordinate axis, at (n, m): the squared distance of point n of the first cloud and point m of the
    second, as the sum of the squared coordinate differences. -/
theorem ref_sq (x0 x1 : FVec Ideal S8192x3 .f32) (n m : Fin 8192) :
    val_main_v6 (F := Ideal) x0 x1 (ix2 n m) = dist2 x0 x1 n m := by
  rw [val_main_v6_apply]
  simp only [val_main_v5_apply, val_main_v4_apply, val_main_v2_apply, val_main_v3_apply, val_main_v0_apply,
    val_main_v1_apply, val_main_cst_apply, idx_arg0, idx_arg1, Ideal.ofBits_def, Ideal.ofBits_zero_f32,
    Ideal.mulf_def, Ideal.subf_def]
  rfl

/-! ## The minima over a row and over a column -/

/-- The word the minima start from denotes the top element. -/
theorem ofBits_top : Ideal.ofBits .f32 0x7F800000#32 = ⊤ := by simp [Ideal.ofBits, Ideal.ieee]

/-- The square root of the sum, at (n, m). -/
theorem ref_sqrt (x0 x1 : FVec Ideal S8192x3 .f32) (n m : Fin 8192) :
    val_main_v7 (F := Ideal) x0 x1 (ix2 n m) = Ideal.sqrt (dist2 x0 x1 n m) := by
  rw [val_main_v7_apply, Ideal.hostUnary_sqrt_def, ref_sq]

/-- The shape condition of the minimum over the second axis, in the form that names the inserted index. -/
theorem reduces_d1 : S8192x8192.Reduces [1] S8192 := by decide

/-- The same for the minimum over the first axis. -/
theorem reduces_d0 : S8192x8192.Reduces [0] S8192 := by decide

/-- Row n with column coordinate m inserted is (n, m). -/
theorem lift_d1 (n m : Fin 8192) : reduces_d1.lift (ix1 n) m = ix2 n m :=
  funext fun a => Fin.ext (by match a with | ⟨0, _⟩ => rfl | ⟨1, _⟩ => rfl)

/-- Column m with row coordinate n inserted is (n, m). -/
theorem lift_d0 (n m : Fin 8192) : reduces_d0.lift (ix1 m) n = ix2 n m :=
  funext fun a => Fin.ext (by match a with | ⟨0, _⟩ => rfl | ⟨1, _⟩ => rfl)

/-- The minimum over row n is the fold of min from the top element over the row's square roots. -/
theorem row_fold (x0 x1 : FVec Ideal S8192x3 .f32) (n : Fin 8192) :
    val_main_v8 (F := Ideal) x0 x1 (ix1 n)
      = (Finset.univ : Finset (Fin 8192)).fold min ⊤ (fun m => Ideal.sqrt (dist2 x0 x1 n m)) := by
  unfold val_main_v8
  rw [Host.reduce_eq_fold_single FloatOps.minimumf _ _ reducesTo_S8192x8192_S8192_d1 reduces_d1 h_S_ (ix1 n)]
  have hinit : val_main_cst_0 (F := Ideal) (Shape.Idx.first h_S_) = (⊤ : EReal) := ofBits_top
  rw [hinit]
  exact Finset.fold_congr fun m _ =>
    (congrArg (val_main_v7 (F := Ideal) x0 x1) (lift_d1 n m)).trans (ref_sqrt x0 x1 n m)

/-- The minimum over column m likewise. -/
theorem col_fold (x0 x1 : FVec Ideal S8192x3 .f32) (m : Fin 8192) :
    val_main_v11 (F := Ideal) x0 x1 (ix1 m)
      = (Finset.univ : Finset (Fin 8192)).fold min ⊤ (fun n => Ideal.sqrt (dist2 x0 x1 n m)) := by
  unfold val_main_v11
  rw [Host.reduce_eq_fold_single FloatOps.minimumf _ _ reducesTo_S8192x8192_S8192_d0 reduces_d0 h_S_ (ix1 m)]
  have hinit : val_main_cst_3 (F := Ideal) (Shape.Idx.first h_S_) = (⊤ : EReal) := ofBits_top
  rw [hinit]
  exact Finset.fold_congr fun n _ =>
    (congrArg (val_main_v7 (F := Ideal) x0 x1) (lift_d0 n m)).trans (ref_sqrt x0 x1 n m)

/-- Entry n of the rows' minima is the greatest lower bound of the distances from point n of the first cloud to the
    points of the second. -/
theorem ref_row (x0 x1 : FVec Ideal S8192x3 .f32) (n : Fin 8192) :
    IsMinOn (fun _ : Fin 8192 => True) (fun m => Ideal.sqrt (dist2 x0 x1 n m)) (val_main_v8 (F := Ideal) x0 x1 (ix1 n)) := by
  rw [row_fold]
  exact (IsMinOn.fold Finset.univ _).congr (fun k => iff_true_intro (Finset.mem_univ k)) (fun _ _ => rfl)

/-- Entry m of the columns' minima is the greatest lower bound of the distances from the points of the first cloud to
    point m of the second. -/
theorem ref_col (x0 x1 : FVec Ideal S8192x3 .f32) (m : Fin 8192) :
    IsMinOn (fun _ : Fin 8192 => True) (fun n => Ideal.sqrt (dist2 x0 x1 n m)) (val_main_v11 (F := Ideal) x0 x1 (ix1 m)) := by
  rw [col_fold]
  exact (IsMinOn.fold Finset.univ _).congr (fun k => iff_true_intro (Finset.mem_univ k)) (fun _ _ => rfl)

/-! ## The tail, and the run -/

/-- The reference's last stage is the common tail at its two vectors of minima: the mean of the rows' minima plus the
    mean of the columns' minima. -/
theorem ref_total (x0 x1 : FVec Ideal S8192x3 .f32) :
    val_main_v14 (F := Ideal) x0 x1
      = total Cert.ReferenceIdeal.Facts₀.reducesTo_S8192_S_d0 Cert.ReferenceIdeal.Facts₀.h_S_
          (val_main_v8 (F := Ideal) x0 x1) (val_main_v11 (F := Ideal) x0 x1) := rfl

/-- The reference's run: from any memory with zero counters every weakly fair execution terminates with the result
    at the common tail of the two vectors of minima of the two argument arrays, and the argument arrays unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
          = total Cert.ReferenceIdeal.Facts₀.reducesTo_S8192_S_d0 Cert.ReferenceIdeal.Facts₀.h_S_
              (val_main_v8 (F := Ideal) (m ((c.tc : Thread nD τ).loc main_arg0)) (m ((c.tc : Thread nD τ).loc main_arg1)))
              (val_main_v11 (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v14_eq (F := Ideal) _ _).trans (ref_total _ _)), (h c).2⟩)
    (Cert.ReferenceIdeal.Value.run (F := Ideal) m ρ)

end Cert.Chamfer.Ref

end
-- ==== Proof.Pieces.lean ====
/-
  What the kernel body leaves in its two output blocks, as values of the four input blocks (and, for the row minima,
  of what the block held before): the row-minimum block ends at the minimum of its previous contents and the tile's
  row minima - the previous contents being the +inf block the body has just stored when the tile is the first of its
  row of tiles -, and the column-minimum block at the tile's column minima.
-/
import proofs.«124197_j32186484916784_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Chamfer.K

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile of a row of tiles: the row-minimum block, holding xo4, ends at the minimum of xo4 and the tile's row minima. -/
theorem out_B_4 (c : Dev nD) (i : grid0.Coords) (arg2 : Memref sig .tc .vmem S2048x3 .f32) (harg2 : arg2.IsWhole) (arg3 : Memref sig .tc .vmem S1024x3 .f32) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1 .f32) (harg6 : arg6.IsWhole) (arg7 : Memref sig .tc .vmem S1x1x1024 .f32) (harg7 : arg7.IsWhole) (hc0 : ¬cond0_0 i)
    (x0 : Vec F S2048x3 .f32) (x1 : Vec F S1024x3 .f32) (x2 : Vec F S2048x1 .f32) (x3 : Vec F S1x1024 .f32) (xo4 : Vec F S2048x1 .f32) :
    out0_B_4 c i arg2 harg2 arg3 harg3 arg4 harg4 arg5 harg5 arg6 harg6 arg7 harg7 hc0 x0 x1 x2 x3 xo4 = k0_pay3 x0 x1 x2 x3 xo4 := by
  unfold out0_B_4
  rw [View.read_writes_eq_canon _ _ _ (cover0_B_4 c i arg2 harg2 arg3 harg3 arg4 harg4 arg5 harg5 arg6 harg6 arg7 harg7 hc0 x0 x1 x2 x3 xo4)]
  unfold kernelRun0_B
  dsimp only
  rw [View.canon_unit_zero hz2]
  simp only [View.readAt_eq_ld, harg2.read_unread, harg3.read_unread, harg4.read_unread, harg5.read_unread, harg6.read_unread, View.ld_unit_zero (S := S2048x3) hz2, View.ld_unit_zero (S := S1024x3) hz2, View.ld_unit_zero (S := S2048x1) hz2, View.ld_unit_zero (S := S1x1024) hz2]

/-- A later tile: the column-minimum block ends at the tile's column minima. -/
theorem out_B_5 (c : Dev nD) (i : grid0.Coords) (arg2 : Memref sig .tc .vmem S2048x3 .f32) (harg2 : arg2.IsWhole) (arg3 : Memref sig .tc .vmem S1024x3 .f32) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1 .f32) (harg6 : arg6.IsWhole) (arg7 : Memref sig .tc .vmem S1x1x1024 .f32) (harg7 : arg7.IsWhole) (hc0 : ¬cond0_0 i)
    (x0 : Vec F S2048x3 .f32) (x1 : Vec F S1024x3 .f32) (x2 : Vec F S2048x1 .f32) (x3 : Vec F S1x1024 .f32) (xo4 : Vec F S2048x1 .f32) :
    out0_B_5 c i arg2 harg2 arg3 harg3 arg4 harg4 arg5 harg5 arg6 harg6 arg7 harg7 hc0 x0 x1 x2 x3 xo4 = k0_pay4 x0 x1 x2 x3 := by
  unfold out0_B_5
  rw [View.read_writes_eq_canon _ _ _ (cover0_B_5 c i arg2 harg2 arg3 harg3 arg4 harg4 arg5 harg5 arg6 harg6 arg7 harg7 hc0 x0 x1 x2 x3 xo4)]
  unfold kernelRun0_B
  dsimp only
  rw [View.canon_unit_zero hz3]
  simp only [View.readAt_eq_ld, harg2.read_unread, harg3.read_unread, harg4.read_unread, harg5.read_unread, harg6.read_unread, View.ld_unit_zero (S := S2048x3) hz2, View.ld_unit_zero (S := S1024x3) hz2, View.ld_unit_zero (S := S2048x1) hz2, View.ld_unit_zero (S := S1x1024) hz2]

/-- The first tile of a row of tiles: the body stores the +inf block, reads it back, and leaves its minimum with the
    tile's row minima. -/
theorem out_A_4 (c : Dev nD) (i : grid0.Coords) (arg2 : Memref sig .tc .vmem S2048x3 .f32) (harg2 : arg2.IsWhole) (arg3 : Memref sig .tc .vmem S1024x3 .f32) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1 .f32) (harg6 : arg6.IsWhole) (arg7 : Memref sig .tc .vmem S1x1x1024 .f32) (harg7 : arg7.IsWhole) (hc0 : cond0_0 i)
    (x0 : Vec F S2048x3 .f32) (x1 : Vec F S1024x3 .f32) (x2 : Vec F S2048x1 .f32) (x3 : Vec F S1x1024 .f32) :
    out0_A_4 c i arg2 harg2 arg3 harg3 arg4 harg4 arg5 harg5 arg6 harg6 arg7 harg7 hc0 x0 x1 x2 x3 = k0_pay3 x0 x1 x2 x3 (k0_pay2 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S2048x1) hz2, View.readCov_unit_zero (S := S2048x1) _ hz2]
  simp only [View.readAt_eq_ld, harg2.read_unread, harg3.read_unread, harg4.read_unread, harg5.read_unread, harg6.read_unread, View.ld_unit_zero (S := S2048x3) hz2, View.ld_unit_zero (S := S1024x3) hz2, View.ld_unit_zero (S := S2048x1) hz2, View.ld_unit_zero (S := S1x1024) hz2]

/-- The first tile: the column-minimum block ends at the tile's column minima. -/
theorem out_A_5 (c : Dev nD) (i : grid0.Coords) (arg2 : Memref sig .tc .vmem S2048x3 .f32) (harg2 : arg2.IsWhole) (arg3 : Memref sig .tc .vmem S1024x3 .f32) (harg3 : arg3.IsWhole) (arg4 : Memref sig .tc .vmem S2048x1 .f32) (harg4 : arg4.IsWhole) (arg5 : Memref sig .tc .vmem S1x1024 .f32) (harg5 : arg5.IsWhole) (arg6 : Memref sig .tc .vmem S2048x1 .f32) (harg6 : arg6.IsWhole) (arg7 : Memref sig .tc .vmem S1x1x1024 .f32) (harg7 : arg7.IsWhole) (hc0 : cond0_0 i)
    (x0 : Vec F S2048x3 .f32) (x1 : Vec F S1024x3 .f32) (x2 : Vec F S2048x1 .f32) (x3 : Vec F S1x1024 .f32) :
    out0_A_5 c i arg2 harg2 arg3 harg3 arg4 harg4 arg5 harg5 arg6 harg6 arg7 harg7 hc0 x0 x1 x2 x3 = k0_pay4 x0 x1 x2 x3 := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  rw [View.canon_unit_zero hz3]
  simp only [View.readAt_eq_ld, harg2.read_unread, harg3.read_unread, harg4.read_unread, harg5.read_unread, harg6.read_unread, View.ld_unit_zero (S := S2048x3) hz2, View.ld_unit_zero (S := S1024x3) hz2, View.ld_unit_zero (S := S2048x1) hz2, View.ld_unit_zero (S := S1x1024) hz2]

end Cert.Chamfer.K

end
-- ==== Proof.Payload.lean ====
/-
  The tile's arithmetic read at an index, over the extended reals: entry (r, q) of the tile of squared distances is
  (|p_r|^2 + |l_q|^2) - 2 * (the inner product of row r of the tile's points of P and row q of its points of L), the
  two squared norms read off the blocks the host prepared; a row minimum is the greatest lower bound over the tile's
  columns, a column minimum over its rows.
-/
import proofs.«124197_j32186484916784_2_alg».proof.Proof.Gen.KernelIdeal.Skeleton
import proofs.«124197_j32186484916784_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open Cert.Lib.MinOn

namespace Cert.Chamfer.K

open Cert.KernelIdeal Cert.KernelIdeal.Gen

/-- The matrix product's dimension numbers: rows of the left operand against columns of the right. -/
abbrev D := dot_S2048x3_S3x1024_S2048x1024_1_0_0_1_n_n

theorem lhs_0 (i : S2048x1024.Idx) (q : D.contr.Idx) : (D.lhsIdx i q 0).val = (i 0).val := by
  unfold DotDims.lhsIdx
  rw [dif_neg (show ¬(0 : Fin S2048x3.rank) ∈ D.lhsBatch by decide), dif_pos (show (0 : Fin S2048x3.rank) ∈ D.lhsNonContracting by decide)]
  rfl
theorem lhs_1 (i : S2048x1024.Idx) (q : D.contr.Idx) : (D.lhsIdx i q 1).val = (q ⟨0, by decide⟩).val :=
  D.lhsIdx_val_of_single rfl i q
theorem rhs_0 (i : S2048x1024.Idx) (q : D.contr.Idx) : (D.rhsIdx i q 0).val = (q ⟨0, by decide⟩).val :=
  D.rhsIdx_val_of_single rfl i q
theorem rhs_1 (i : S2048x1024.Idx) (q : D.contr.Idx) : (D.rhsIdx i q 1).val = (i 1).val := by
  unfold DotDims.rhsIdx
  rw [dif_neg (show ¬(1 : Fin S3x1024.rank) ∈ D.rhsBatch by decide), dif_pos (show (1 : Fin S3x1024.rank) ∈ D.rhsNonContracting by decide)]
  rfl

/-- The product of the tile's points of P with the transposed points of L, into the zero accumulator, at (r, q): the
    inner product of row r and row q. -/
theorem cross_apply (x0 : FVec Ideal S2048x3 .f32) (x1 : FVec Ideal S1024x3 .f32) (r : Fin 2048) (q : Fin 1024) :
    matmul D (some .fp32) x0 (transpose S3x1024 [1, 0] x1 Facts₀.transposes_S1024x3_p1_0_S3x1024) (constant S2048x1024 .f32 0x00000000#32) (ix2 r q)
      = ∑ k : Fin 3, x0 (ix2 r k) * x1 (ix2 q k) := by
  simp only [matmul]
  rw [Ideal.matmul_constant_zero_apply, ← Equiv.sum_comp (contrEquiv1 D 3 rfl rfl).symm]
  refine Finset.sum_congr rfl fun k _ => ?_
  have hk := contrEquiv1_symm_val D 3 rfl rfl k
  have el : D.lhsIdx (ix2 r q) ((contrEquiv1 D 3 rfl rfl).symm k) = ix2 r k := funext fun a => Fin.ext (by
    match a with
    | ⟨0, _⟩ => exact lhs_0 _ _
    | ⟨1, _⟩ => exact (lhs_1 _ _).trans hk)
  have er : D.rhsIdx (ix2 r q) ((contrEquiv1 D 3 rfl rfl).symm k) = ix2 k q := funext fun a => Fin.ext (by
    match a with
    | ⟨0, _⟩ => exact (rhs_0 _ _).trans hk
    | ⟨1, _⟩ => exact rhs_1 _ _)
  rw [el, er, transpose_ix2_apply]

/-- A column of height a broadcast over b lanes reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tile of squared distances at (r, q). -/
theorem pay1_apply (x0 : FVec Ideal S2048x3 .f32) (x1 : FVec Ideal S1024x3 .f32) (x2 : FVec Ideal S2048x1 .f32) (x4 : FVec Ideal S1x1024 .f32)
    (r : Fin 2048) (q : Fin 1024) :
    k0_pay1 (F := Ideal) x0 x1 x2 x4 (ix2 r q)
      = (x2 (ix2 r (0 : Fin 1)) + x4 (ix2 (0 : Fin 1) q)) - Ideal.ofBits .f32 0x40000000#32 * ∑ k : Fin 3, x0 (ix2 r k) * x1 (ix2 q k) := by
  unfold k0_pay1
  rw [shapeCast_self, shapeCast_self]
  show (broadcastTo S2048x1024 x2 _ (ix2 r q) + broadcastTo S2048x1024 x4 _ (ix2 r q))
      - (Ideal.ofBits .f32 0x40000000#32 * matmul D (some .fp32) x0 (transpose S3x1024 [1, 0] x1 _) (constant S2048x1024 .f32 0x00000000#32) (ix2 r q)) = _
  rw [broadcastTo_a1_ab_apply, broadcastTo_1b_ab_apply, cross_apply]

/-- The word of +inf is the top element. -/
theorem inf_word : Ideal.ofBits .f32 0x7F800000#32 = (⊤ : EReal) := by simp [Ideal.ofBits, Ideal.ieee]

/-- The +inf block the body stores at the first tile of a row of tiles. -/
theorem pay2_apply (r : Fin 2048) : k0_pay2 (F := Ideal) (ix2 r (0 : Fin 1)) = (⊤ : EReal) := by
  unfold k0_pay2
  exact inf_word

/-- A tile's row minimum from +inf, at row r: the greatest lower bound of the row's 1024 entries. -/
theorem rowmin_isMin (src : FVec Ideal S2048x1024 .f32) (h : S2048x1024.Reduces [1] S2048)
    (hφ : FKind.Formats .f32) (hacc : (0x7F800000#32 : BitVec 32) = FKind.minimumf.neutral .f32 hφ) (r : Fin 2048) :
    IsMinOn (fun _ : Fin 1024 => True) (fun q => src (ix2 r q))
      (multiReduction .minimumf [1] S2048 src 0x7F800000#32 h hφ hacc (ix1 r)) := by
  have e : multiReduction .minimumf [1] S2048 src 0x7F800000#32 h hφ hacc (ix1 r)
      = (Finset.univ : Finset (Fin 1024)).fold min ⊤ (fun q => src (ix2 r q)) := by
    refine (multiReduction_minimumf_eq_fold src _ h hφ hacc (ix1 r)).trans ?_
    refine (h.fold_filter_drop_single _ _ src (ix1 r)).trans ?_
    have el : (src ∘ h.lift (ix1 r)) = fun q : Fin 1024 => src (ix2 r q) := funext fun q => congrArg src (funext fun a => Fin.ext (by
      match a with
      | ⟨0, _⟩ => rfl
      | ⟨1, _⟩ => rfl))
    rw [el]
    exact congrArg (fun z => (Finset.univ : Finset (Fin 1024)).fold min z (fun q => src (ix2 r q))) inf_word
  rw [e]
  exact (IsMinOn.fold Finset.univ _).congr (fun _ => ⟨fun _ => trivial, fun _ => Finset.mem_univ _⟩) (fun _ _ => rfl)

/-- A tile's column minimum from +inf, at column q: the greatest lower bound of the column's 2048 entries. -/
theorem colmin_isMin (src : FVec Ideal S2048x1024 .f32) (h : S2048x1024.Reduces [0] S1024)
    (hφ : FKind.Formats .f32) (hacc : (0x7F800000#32 : BitVec 32) = FKind.minimumf.neutral .f32 hφ) (q : Fin 1024) :
    IsMinOn (fun _ : Fin 2048 => True) (fun r => src (ix2 r q))
      (multiReduction .minimumf [0] S1024 src 0x7F800000#32 h hφ hacc (ix1 q)) := by
  have e : multiReduction .minimumf [0] S1024 src 0x7F800000#32 h hφ hacc (ix1 q)
      = (Finset.univ : Finset (Fin 2048)).fold min ⊤ (fun r => src (ix2 r q)) := by
    refine (multiReduction_minimumf_eq_fold src _ h hφ hacc (ix1 q)).trans ?_
    refine (h.fold_filter_drop_single _ _ src (ix1 q)).trans ?_
    have el : (src ∘ h.lift (ix1 q)) = fun r : Fin 2048 => src (ix2 r q) := funext fun r => congrArg src (funext fun a => Fin.ext (by
      match a with
      | ⟨0, _⟩ => rfl
      | ⟨1, _⟩ => rfl))
    rw [el]
    exact congrArg (fun z => (Finset.univ : Finset (Fin 2048)).fold min z (fun r => src (ix2 r q))) inf_word
  rw [e]
  exact (IsMinOn.fold Finset.univ _).congr (fun _ => ⟨fun _ => trivial, fun _ => Finset.mem_univ _⟩) (fun _ _ => rfl)

/-- The row-minimum store at row r: the minimum of what the block held there and the tile's row minimum. -/
theorem pay3_apply (x0 : FVec Ideal S2048x3 .f32) (x1 : FVec Ideal S1024x3 .f32) (x2 : FVec Ideal S2048x1 .f32) (x4 : FVec Ideal S1x1024 .f32)
    (v19 : FVec Ideal S2048x1 .f32) (r : Fin 2048) :
    k0_pay3 (F := Ideal) x0 x1 x2 x4 v19 (ix2 r (0 : Fin 1))
      = min (v19 (ix2 r (0 : Fin 1)))
          (multiReduction .minimumf [1] S2048 (k0_pay1 (F := Ideal) x0 x1 x2 x4) 0x7F800000#32 Facts₀.reduces_S2048x1024_S2048 (.inl rfl) rfl (ix1 r)) := by
  unfold k0_pay3
  rw [shapeCast_self]
  show min (v19 (ix2 r (0 : Fin 1))) (shapeCast S2048x1 _ Facts₀.shapeCasts_S2048_S2048x1 (ix2 r (0 : Fin 1))) = _
  refine congrArg (min (v19 (ix2 r (0 : Fin 1)))) ?_
  refine shapeCast_apply _ _ (ix2 r (0 : Fin 1)) (ix1 r) ?_
  rw [Shape.rowMajor_val_one, Shape.rowMajor_val_two]
  show r.val = r.val * 1 + 0
  omega

/-- The column-minimum store at lane q: the tile's column minimum. -/
theorem pay4_apply (x0 : FVec Ideal S2048x3 .f32) (x1 : FVec Ideal S1024x3 .f32) (x2 : FVec Ideal S2048x1 .f32) (x4 : FVec Ideal S1x1024 .f32)
    (q : Fin 1024) :
    k0_pay4 (F := Ideal) x0 x1 x2 x4 (ix3 (0 : Fin 1) (0 : Fin 1) q)
      = multiReduction .minimumf [0] S1024 (k0_pay1 (F := Ideal) x0 x1 x2 x4) 0x7F800000#32 Facts₀.reduces_S2048x1024_S1024 (.inl rfl) rfl (ix1 q) := by
  unfold k0_pay4
  refine (shapeCast_apply _ _ (ix3 (0 : Fin 1) (0 : Fin 1) q) (ix2 (0 : Fin 1) q) ?_).trans ?_
  · rw [Shape.rowMajor_val_two, Shape.rowMajor_val_three]
    show 0 * 1024 + q.val = (0 * 1 + 0) * 1024 + q.val
    omega
  · refine shapeCast_apply _ _ (ix2 (0 : Fin 1) q) (ix1 q) ?_
    rw [Shape.rowMajor_val_one, Shape.rowMajor_val_two]
    show q.val = 0 * 1024 + q.val
    omega

end Cert.Chamfer.K

end
-- ==== Proof.Blocks.lean ====
/-
  The input blocks of a tile, read off the arrays the region finds. The grid is 4 rows of 8 tiles: tile t takes rows
  2048 (t / 8) + r of the first cloud and of its squared norms, rows 1024 (t % 8) + q of the second cloud and of its
  squared norms; the squared norms are the host's sums of squares from zero. So entry (r, q) of tile t's squared
  distances is the expanded squared distance of those two points.
-/
import proofs.«124197_j32186484916784_2_alg».proof.Proof.Gen.KernelIdeal.Frame
import proofs.«124197_j32186484916784_2_alg».proof.Proof.Spec
import proofs.«124197_j32186484916784_2_alg».proof.Proof.Payload
import Idealize.ShloMosaic.Lib.Pipeline.Value
import Idealize.ShloMosaic.Lib.StableHlo.Run
import Idealize.ShloMosaic.Lib.ValueIdx
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Chamfer.K

open Cert.KernelIdeal Cert.KernelIdeal.Gen

variable (m : (ℓ : Loc nD τ sig) → Buf (Elt Ideal) ℓ)

/-- The two point clouds, as launched. -/
abbrev cloudP (c : Dev nD) : Pts.Idx → EReal := m ((c : Thread nD τ).loc main_arg0)
abbrev cloudL (c : Dev nD) : Pts.Idx → EReal := m ((c : Thread nD τ).loc main_arg1)

/-- The block index maps, decided once over the 32 grid points. -/
theorem idx_facts : ∀ t : Fin cfg0.N,
    win0_0.index t 0 = t.val / 8 ∧ win0_0.index t 1 = 0 ∧ win0_1.index t 0 = t.val % 8 ∧ win0_1.index t 1 = 0
    ∧ win0_2.index t 0 = t.val / 8 ∧ win0_2.index t 1 = 0 ∧ win0_3.index t 0 = 0 ∧ win0_3.index t 1 = t.val % 8 :=
  (by decide +kernel : ∀ t : Fin grid0.N, _)

theorem iblk0_apply (c : Dev nD) (t : Fin cfg0.N) (r : Fin 2048) (k : Fin 3) (hn : 2048 * (t.val / 8) + r.val < 8192) :
    (iblk m c 0 t : Vec Ideal S2048x3 .f32) (ix2 r k) = cloudP m c (ix2 (⟨2048 * (t.val / 8) + r.val, hn⟩ : Fin 8192) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 2048 + 1 * r.val = 2048 * (t.val / 8) + r.val; rw [(idx_facts t).1]; omega
  | ⟨1, _⟩ => show win0_0.index t 1 * 3 + 1 * k.val = k.val; rw [(idx_facts t).2.1]; omega

theorem iblk1_apply (c : Dev nD) (t : Fin cfg0.N) (q : Fin 1024) (k : Fin 3) (hm : 1024 * (t.val % 8) + q.val < 8192) :
    (iblk m c 1 t : Vec Ideal S1024x3 .f32) (ix2 q k) = cloudL m c (ix2 (⟨1024 * (t.val % 8) + q.val, hm⟩ : Fin 8192) k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1024 + 1 * q.val = 1024 * (t.val % 8) + q.val; rw [(idx_facts t).2.2.1]; omega
  | ⟨1, _⟩ => show win0_1.index t 1 * 3 + 1 * k.val = k.val; rw [(idx_facts t).2.2.2.1]; omega

theorem iblk2_apply (c : Dev nD) (t : Fin cfg0.N) (r : Fin 2048) (hn : 2048 * (t.val / 8) + r.val < 8192) :
    (iblk m c 2 t : Vec Ideal S2048x1 .f32) (ix2 r (0 : Fin 1))
      = (V m c main_v2 : S8192x1.Idx → EReal) (ix2 (⟨2048 * (t.val / 8) + r.val, hn⟩ : Fin 8192) (0 : Fin 1)) := by
  unfold iblk
  rw [View.read_apply]
  show V m c main_v2 _ = _
  refine congrArg (V m c main_v2) (funext fun a => Fin.ext ?_)
  match a with
  | ⟨0, _⟩ => show win0_2.index t 0 * 2048 + 1 * r.val = 2048 * (t.val / 8) + r.val; rw [(idx_facts t).2.2.2.2.1]; omega
  | ⟨1, _⟩ => show win0_2.index t 1 * 1 + 1 * 0 = 0; rw [(idx_facts t).2.2.2.2.2.1]

theorem iblk3_apply (c : Dev nD) (t : Fin cfg0.N) (q : Fin 1024) (hm : 1024 * (t.val % 8) + q.val < 8192) :
    (iblk m c 3 t : Vec Ideal S1x1024 .f32) (ix2 (0 : Fin 1) q)
      = (V m c main_v6 : S1x8192.Idx → EReal) (ix2 (0 : Fin 1) (⟨1024 * (t.val % 8) + q.val, hm⟩ : Fin 8192)) := by
  unfold iblk
  rw [View.read_apply]
  show V m c main_v6 _ = _
  refine congrArg (V m c main_v6) (funext fun a => Fin.ext ?_)
  match a with
  | ⟨0, _⟩ => show win0_3.index t 0 * 1 + 1 * 0 = 0; rw [(idx_facts t).2.2.2.2.2.2.1]
  | ⟨1, _⟩ => show win0_3.index t 1 * 1024 + 1 * q.val = 1024 * (t.val % 8) + q.val; rw [(idx_facts t).2.2.2.2.2.2.2]; omega

/-- The sum over the coordinates of a point, as the host takes it. -/
theorem rowsum_apply (X : FVec Ideal S8192x3 .f32) (n : Fin 8192) :
    Host.reduceAdd (F := Ideal) X (constant (F := Ideal) S_ .f32 0x00000000#32) Facts₀.reducesTo_S8192x3_S8192_d1 Facts₀.h_S_ (ix1 n)
      = 0 + ∑ d : Fin 3, X (ix2 n d) := by
  have h : S8192x3.Reduces [1] S8192 := by decide
  rw [hostReduceAdd_apply]
  refine (Ideal.hostReduceAdd_single Facts₀.reducesTo_S8192x3_S8192_d1 h X _ (ix1 n)).trans ?_
  refine congrArg₂ (· + ·) Ideal.ofBits_zero_f32 (Finset.sum_congr rfl fun d _ => congrArg X (funext fun a => Fin.ext ?_))
  match a with
  | ⟨0, _⟩ => rfl
  | ⟨1, _⟩ => rfl

/-- The squared norms of the first cloud, as the region finds them: a column, the host's sums of squares. -/
theorem normP_apply (c : Dev nD) (n : Fin 8192) :
    (V m c main_v2 : S8192x1.Idx → EReal) (ix2 n (0 : Fin 1)) = 0 + ∑ d : Fin 3, cloudP m c (ix2 n d) * cloudP m c (ix2 n d) := by
  have e : (V m c main_v2 : S8192x1.Idx → EReal)
      = broadcastInDim S8192x1 ![0] Facts₀.bcast_S8192_S8192x1_0
          (Host.reduceAdd (F := Ideal) (mulf (cloudP m c) (cloudP m c)) (constant (F := Ideal) S_ .f32 0x00000000#32) Facts₀.reducesTo_S8192x3_S8192_d1 Facts₀.h_S_) := by
    show StableHlo.after hostOps0 (fun b => m (c, b)) (Proc.devRef .tc main_v2) = _
    after_results
  rw [e]
  refine (broadcastInDim_apply _ _ _ (ix2 n (0 : Fin 1)) (ix1 n) (fun a => ?_)).trans (rowsum_apply _ n)
  match a with
  | ⟨0, _⟩ => rfl

/-- The squared norms of the second cloud, as the region finds them: the same column laid out as a row. -/
theorem normL_apply (c : Dev nD) (n : Fin 8192) :
    (V m c main_v6 : S1x8192.Idx → EReal) (ix2 (0 : Fin 1) n) = 0 + ∑ d : Fin 3, cloudL m c (ix2 n d) * cloudL m c (ix2 n d) := by
  have e : (V m c main_v6 : S1x8192.Idx → EReal)
      = shapeCast S1x8192 (broadcastInDim S8192x1 ![0] Facts₀.bcast_S8192_S8192x1_0
          (Host.reduceAdd (F := Ideal) (mulf (cloudL m c) (cloudL m c)) (constant (F := Ideal) S_ .f32 0x00000000#32) Facts₀.reducesTo_S8192x3_S8192_d1 Facts₀.h_S_))
          Facts₀.shapeCasts_S8192x1_S1x8192 := by
    show StableHlo.after hostOps0 (fun b => m (c, b)) (Proc.devRef .tc main_v6) = _
    after_results
    rfl
  rw [e]
  refine (shapeCast_apply _ _ (ix2 (0 : Fin 1) n) (ix2 n (0 : Fin 1)) ?_).trans ?_
  · rw [Shape.rowMajor_val_two, Shape.rowMajor_val_two]
    show n.val * 1 + 0 = 0 * 8192 + n.val
    omega
  · refine (broadcastInDim_apply _ _ _ (ix2 n (0 : Fin 1)) (ix1 n) (fun a => ?_)).trans (rowsum_apply _ n)
    match a with
    | ⟨0, _⟩ => rfl

/-- Entry (r, q) of tile t's squared distances is the expanded squared distance of point 2048 (t / 8) + r of the first
    cloud and point 1024 (t % 8) + q of the second. -/
theorem tile_apply (c : Dev nD) (t : Fin cfg0.N) (r : Fin 2048) (q : Fin 1024)
    (hn : 2048 * (t.val / 8) + r.val < 8192) (hm : 1024 * (t.val % 8) + q.val < 8192) :
    k0_pay1 (F := Ideal) (iblk m c 0 t) (iblk m c 1 t) (iblk m c 2 t) (iblk m c 3 t) (ix2 r q)
      = gram (cloudP m c) (cloudL m c) ⟨2048 * (t.val / 8) + r.val, hn⟩ ⟨1024 * (t.val % 8) + q.val, hm⟩ := by
  refine (pay1_apply (iblk m c 0 t) (iblk m c 1 t) (iblk m c 2 t) (iblk m c 3 t) r q).trans ?_
  unfold gram
  rw [iblk2_apply m c t r hn, iblk3_apply m c t q hm, normP_apply, normL_apply]
  congr 2
  exact Finset.sum_congr rfl fun k _ => by rw [iblk0_apply m c t r k hn, iblk1_apply m c t q k hm]

end Cert.Chamfer.K

end
-- ==== Proof.Accum.lean ====
/-
  What the two output blocks hold after each tile, over the whole arrays. The row-minimum block is carried along a row
  of 8 tiles: after tile t its entry r is the greatest lower bound of the expanded squared distances of point
  2048 (t / 8) + r of the first cloud to the points of the second cloud seen so far, those below 1024 (t % 8 + 1) - by
  induction on the tile -, so after the last tile of the row to all of them. The column-minimum block of tile t holds
  at lane q the greatest lower bound over the tile's 2048 rows.
-/
import proofs.«124197_j32186484916784_2_alg».proof.Proof.Pieces
import proofs.«124197_j32186484916784_2_alg».proof.Proof.Blocks

noncomputable section

open Idealize.ShloMosaic Idealize.ShloMosaic.TcCoe Idealize.SL.Sem Idealize.ShloMosaic.ValueIdx
open Cert.Lib.MinOn
open Idealize.ShloMosaic.Pipeline (Dat)

namespace Cert.Chamfer.K

open Cert.KernelIdeal Cert.KernelIdeal.Gen

variable (m : (ℓ : Loc nD τ sig) → Buf (Elt Ideal) ℓ)

/-- The columns below 1024 j, together with the 1024 columns of tile column j, are the columns below 1024 (j + 1). -/
theorem cols_step (j : ℕ) (hj : j < 8) (mm : Fin 8192) :
    (mm.val < 1024 * j ∨ ∃ q : Fin 1024, True ∧ (⟨1024 * j + q.val, by have := q.isLt; omega⟩ : Fin 8192) = mm) ↔ mm.val < 1024 * (j + 1) := by
  constructor
  · rintro (h | ⟨q, -, rfl⟩)
    · omega
    · have := q.isLt; show 1024 * j + q.val < _; omega
  · intro h
    by_cases h' : mm.val < 1024 * j
    · exact .inl h'
    · exact .inr ⟨⟨mm.val - 1024 * j, by omega⟩, trivial, Fin.ext (by show 1024 * j + (mm.val - 1024 * j) = mm.val; omega)⟩

/-- One tile's step on the row-minimum block: if entry r held the greatest lower bound over the columns below
    1024 (t % 8), it ends at the greatest lower bound over the columns below 1024 (t % 8 + 1). -/
theorem row_step (c : Dev nD) (t : Fin cfg0.N) (r : Fin 2048) (hn : 2048 * (t.val / 8) + r.val < 8192)
    (v19 : FVec Ideal S2048x1 .f32)
    (hprev : IsMinOn (fun mm : Fin 8192 => mm.val < 1024 * (t.val % 8))
      (fun mm => gram (cloudP m c) (cloudL m c) ⟨2048 * (t.val / 8) + r.val, hn⟩ mm) (v19 (ix2 r (0 : Fin 1)))) :
    IsMinOn (fun mm : Fin 8192 => mm.val < 1024 * (t.val % 8 + 1))
      (fun mm => gram (cloudP m c) (cloudL m c) ⟨2048 * (t.val / 8) + r.val, hn⟩ mm)
      (k0_pay3 (F := Ideal) (iblk m c 0 t) (iblk m c 1 t) (iblk m c 2 t) (iblk m c 3 t) v19 (ix2 r (0 : Fin 1))) := by
  have hj : t.val % 8 < 8 := Nat.mod_lt _ (by decide)
  rw [pay3_apply (iblk m c 0 t) (iblk m c 1 t) (iblk m c 2 t) (iblk m c 3 t) v19 r]
  have htile := IsMinOn.map (f := fun mm => gram (cloudP m c) (cloudL m c) ⟨2048 * (t.val / 8) + r.val, hn⟩ mm)
    (fun q : Fin 1024 => (⟨1024 * (t.val % 8) + q.val, by have := q.isLt; omega⟩ : Fin 8192))
    ((rowmin_isMin (k0_pay1 (F := Ideal) (iblk m c 0 t) (iblk m c 1 t) (iblk m c 2 t) (iblk m c 3 t))
      Facts₀.reduces_S2048x1024_S2048 (.inl rfl) rfl r).congr (fun _ => Iff.rfl)
      (fun q _ => tile_apply m c t r q hn (by have := q.isLt; omega)))
  exact (hprev.min htile).congr (cols_step (t.val % 8) hj) (fun _ _ => rfl)

/-- What a first tile of a row of tiles leaves in the row-minimum block. -/
theorem outs4_eq_A (c : Dev nD) (t : Fin cfg0.N) (h0 : t.val % 8 = 0) :
    (outsAt0 m c t.val t.isLt).1 = k0_pay3 (F := Ideal) (iblk m c 0 t) (iblk m c 1 t) (iblk m c 2 t) (iblk m c 3 t) (k0_pay2 (F := Ideal)) := by
  rw [outsAt0_A m c t h0, out_A_4]

/-- What a later tile leaves there, over what the tile before left. -/
theorem outs4_eq_B (c : Dev nD) (t : Fin cfg0.N) (h0 : ¬t.val % 8 = 0) :
    (outsAt0 m c t.val t.isLt).1 = k0_pay3 (F := Ideal) (iblk m c 0 t) (iblk m c 1 t) (iblk m c 2 t) (iblk m c 3 t)
      (outsAt0 m c (t.val - 1) (Nat.lt_of_le_of_lt (Nat.sub_le _ _) t.isLt)).1 := by
  rw [outsAt0_B m c t h0, out_B_4]

/-- THE ACCUMULATION: after tile n, entry r of the row-minimum block is the greatest lower bound over the columns
    below 1024 (n % 8 + 1). -/
theorem rowAcc (c : Dev nD) : ∀ (n : ℕ) (h : n < cfg0.N) (r : Fin 2048) (hn : 2048 * (n / 8) + r.val < 8192),
    IsMinOn (fun mm : Fin 8192 => mm.val < 1024 * (n % 8 + 1))
      (fun mm => gram (cloudP m c) (cloudL m c) ⟨2048 * (n / 8) + r.val, hn⟩ mm)
      ((outsAt0 m c n h).1 (ix2 r (0 : Fin 1)))
  | 0, h, r, hn => by
    rw [outs4_eq_A m c ⟨0, h⟩ rfl]
    exact row_step m c ⟨0, h⟩ r hn (k0_pay2 (F := Ideal))
      ((pay2_apply r).symm ▸ IsMinOn.empty fun mm (hm : mm.val < 1024 * (0 % 8)) => by omega)
  | n + 1, h, r, hn => by
    have hN : cfg0.N = 32 := N_0
    by_cases h0 : (n + 1) % 8 = 0
    · rw [outs4_eq_A m c ⟨n + 1, h⟩ h0]
      exact row_step m c ⟨n + 1, h⟩ r hn (k0_pay2 (F := Ideal))
        ((pay2_apply r).symm ▸ IsMinOn.empty fun mm (hm : mm.val < 1024 * ((n + 1) % 8)) => by omega)
    · rw [outs4_eq_B m c ⟨n + 1, h⟩ h0]
      have hn' : 2048 * (n / 8) + r.val < 8192 := by omega
      have e : (⟨2048 * (n / 8) + r.val, hn'⟩ : Fin 8192) = ⟨2048 * ((n + 1) / 8) + r.val, hn⟩ := Fin.ext (by show 2048 * (n / 8) + r.val = 2048 * ((n + 1) / 8) + r.val; omega)
      refine row_step m c ⟨n + 1, h⟩ r hn (outsAt0 m c n (Nat.lt_of_succ_lt h)).1 ?_
      exact (rowAcc c n (Nat.lt_of_succ_lt h) r hn').congr (fun mm => by show mm.val < 1024 * (n % 8 + 1) ↔ mm.val < 1024 * ((n + 1) % 8); omega)
        (fun mm _ => by rw [e])

/-- After the last tile of a row of tiles (t % 8 = 7) every entry of the row-minimum block is the greatest lower bound
    over all 8192 columns; the entry is named by its array row nn. -/
theorem rowAcc_last (c : Dev nD) (t : Fin cfg0.N) (h7 : t.val % 8 = 7) (y : S2048x1.Idx) (nn : Fin 8192)
    (hnn : nn.val = 2048 * (t.val / 8) + (y 0).val) :
    IsMinOn (fun _ : Fin 8192 => True) (fun mm => gram (cloudP m c) (cloudL m c) nn mm) ((outsAt0 m c t.val t.isLt).1 y) := by
  have hN : t.val < 32 := lt_of_lt_of_eq t.isLt (show cfg0.N = 32 from N_0)
  have hr : (y 0).val < 2048 := idx2_lt0 y
  have hn : 2048 * (t.val / 8) + (y 0).val < 8192 := by omega
  have ey : y = ix2 (⟨(y 0).val, hr⟩ : Fin 2048) (0 : Fin 1) := funext fun a => Fin.ext (by
    match a with
    | ⟨0, _⟩ => rfl
    | ⟨1, _⟩ => have := idx2_lt1 y; show (y 1).val = 0; omega)
  have enn : nn = ⟨2048 * (t.val / 8) + (y 0).val, hn⟩ := Fin.ext hnn
  rw [ey, enn]
  exact (rowAcc m c t.val t.isLt ⟨(y 0).val, hr⟩ hn).congr (fun mm => by have := mm.isLt; rw [h7]; exact ⟨fun _ => trivial, fun _ => by omega⟩) (fun _ _ => rfl)

/-- The column-minimum block of tile t at lane q: the greatest lower bound over the rows of the tile's row of tiles,
    of the expanded squared distances to point 1024 (t % 8) + q of the second cloud. -/
theorem colTile_pay (c : Dev nD) (t : Fin cfg0.N) (q : Fin 1024) (hm : 1024 * (t.val % 8) + q.val < 8192) :
    IsMinOn (fun n : Fin 8192 => n.val / 2048 = t.val / 8)
      (fun n => gram (cloudP m c) (cloudL m c) n ⟨1024 * (t.val % 8) + q.val, hm⟩)
      (k0_pay4 (F := Ideal) (iblk m c 0 t) (iblk m c 1 t) (iblk m c 2 t) (iblk m c 3 t) (ix3 (0 : Fin 1) (0 : Fin 1) q)) := by
  have hN : t.val < 32 := lt_of_lt_of_eq t.isLt (show cfg0.N = 32 from N_0)
  rw [pay4_apply (iblk m c 0 t) (iblk m c 1 t) (iblk m c 2 t) (iblk m c 3 t) q]
  have htile := IsMinOn.map (f := fun n => gram (cloudP m c) (cloudL m c) n ⟨1024 * (t.val % 8) + q.val, hm⟩)
    (fun r : Fin 2048 => (⟨2048 * (t.val / 8) + r.val, by have := r.isLt; omega⟩ : Fin 8192))
    ((colmin_isMin (k0_pay1 (F := Ideal) (iblk m c 0 t) (iblk m c 1 t) (iblk m c 2 t) (iblk m c 3 t))
      Facts₀.reduces_S2048x1024_S1024 (.inl rfl) rfl q).congr (fun _ => Iff.rfl)
      (fun r _ => tile_apply m c t r q (by have := r.isLt; omega) hm))
  refine htile.congr (fun n => ?_) (fun _ _ => rfl)
  constructor
  · rintro ⟨r, -, rfl⟩
    have := r.isLt
    show (2048 * (t.val / 8) + r.val) / 2048 = t.val / 8
    omega
  · intro h
    have := n.isLt
    exact ⟨⟨n.val - 2048 * (t.val / 8), by omega⟩, trivial, Fin.ext (by show 2048 * (t.val / 8) + (n.val - 2048 * (t.val / 8)) = n.val; omega)⟩

/-- What tile t leaves in the column-minimum block is that payload, whichever case the tile is in. -/
theorem outs5_eq (c : Dev nD) (t : Fin cfg0.N) :
    (outsAt0 m c t.val t.isLt).2 = k0_pay4 (F := Ideal) (iblk m c 0 t) (iblk m c 1 t) (iblk m c 2 t) (iblk m c 3 t) := by
  by_cases h0 : t.val % 8 = 0
  · rw [outsAt0_A m c t h0, out_A_5]
  · rw [outsAt0_B m c t h0, out_B_5]

/-- So entry y of tile t's column-minimum block, named by its array position (a, mm), is the greatest lower bound over
    the rows n with n / 2048 = a. -/
theorem colTile (c : Dev nD) (t : Fin cfg0.N) (y : S1x1x1024.Idx) (a : Fin 4) (mm : Fin 8192)
    (ha : a.val = t.val / 8 + (y 0).val) (hmm : mm.val = 1024 * (t.val % 8) + (y 2).val) :
    IsMinOn (fun n : Fin 8192 => n.val / 2048 = a.val) (fun n => gram (cloudP m c) (cloudL m c) n mm)
      ((outsAt0 m c t.val t.isLt).2 y) := by
  have hq : (y 2).val < 1024 := (y 2).isLt
  have h0 : (y 0).val < 1 := (y 0).isLt
  have h1 : (y 1).val < 1 := (y 1).isLt
  have hm : 1024 * (t.val % 8) + (y 2).val < 8192 := by omega
  have ey : y = ix3 (0 : Fin 1) (0 : Fin 1) (⟨(y 2).val, hq⟩ : Fin 1024) := funext fun b => Fin.ext (by
    match b with
    | ⟨0, _⟩ => show (y 0).val = 0; omega
    | ⟨1, _⟩ => show (y 1).val = 0; omega
    | ⟨2, _⟩ => rfl)
  have emm : mm = ⟨1024 * (t.val % 8) + (y 2).val, hm⟩ := Fin.ext hmm
  rw [outs5_eq, ey, emm]
  exact (colTile_pay m c t ⟨(y 2).val, hq⟩ hm).congr (fun n => by rw [ha]; show n.val / 2048 = t.val / 8 ↔ n.val / 2048 = t.val / 8 + (y 0).val; omega) (fun _ _ => rfl)

end Cert.Chamfer.K

end
-- ==== Proof.Cover.lean ====
/-
  The two output windows of the kernel's grid cover their arrays. The grid has 32 points; point t has coordinates
  (t / 8, t % 8). Window 4 (the array of shape [8192, 1]) has blocks of 2048 rows at block index (t / 8, 0) and is
  written back at the points with t % 8 = 7; window 5 (the array of shape [4, 1, 8192]) has blocks of 1024 entries
  of the last axis at block index (t / 8, 0, t % 8) and is written back at every point. Row n of the first array
  lies in the block of point 8 (n / 2048) + 7; entry (a, 0, k) of the second in the block of point 8 a + k / 1024.
  A block element with coordinates y sits in its array at block index times block size plus y, axis by axis.
-/
import proofs.«124197_j32186484916784_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.Chamfer.K

open Cert.KernelIdeal Cert.KernelIdeal.Gen Idealize.ShloMosaic Idealize.ShloMosaic.TcCoe Idealize.SL.Sem
open Idealize.ShloMosaic.ValueIdx

/-- The block indices of the two output windows at point t, decided once over the 32 points of the grid:
    window 4 at (t / 8, 0), window 5 at (t / 8, 0, t % 8). -/
theorem idx_facts45 : ∀ t : Fin cfg0.N, win0_4.index t 0 = t.val / 8 ∧ win0_4.index t 1 = 0
    ∧ win0_5.index t 0 = t.val / 8 ∧ win0_5.index t 1 = 0 ∧ win0_5.index t 2 = t.val % 8 :=
  (by decide +kernel : ∀ t : Fin grid0.N, _)

/-- An index of the [8192, 1] array is in point t's block iff each coordinate is in the block's range on its axis. -/
theorem mem_blk4 (t : Fin cfg0.N) (i : S8192x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v7_0).slice (win0_4.rect t)).set ↔ _
  rw [View.set_slice_whole, Rect.mem_set_unit]
  exact Iff.rfl

/-- An index of the [4, 1, 8192] array is in point t's block iff each coordinate is in the block's range on its axis. -/
theorem mem_blk5 (t : Fin cfg0.N) (i : S4x1x8192.Idx) :
    i ∈ ((cfg0.win 5).blk t).view.set ↔ ∀ a : Fin 3, win0_5.index t a * S1x1x1024.size a ≤ (i a).val
      ∧ (i a).val < win0_5.index t a * S1x1x1024.size a + S1x1x1024.size a := by
  show i ∈ ((View.whole main_v7_1).slice (win0_5.rect t)).set ↔ _
  rw [View.set_slice_whole, Rect.mem_set_unit]
  exact Iff.rfl

/-- Row n of the [8192, 1] array lies in the block written back at point 8 (n / 2048) + 7. -/
theorem cover4_idx (i : S8192x1.Idx) :
    ∃ t : Fin cfg0.N, (cfg0.win 4).flush t = true ∧ i ∈ ((cfg0.win 4).blk t).view.set := by
  have hN : cfg0.N = 32 := N_0
  have hi0 : (i 0).val < 8192 := (i 0).isLt
  have hi1 : (i 1).val < 1 := (i 1).isLt
  obtain ⟨t, htv⟩ : ∃ t : Fin cfg0.N, t.val = 8 * ((i 0).val / 2048) + 7 := ⟨⟨_, by rw [hN]; omega⟩, rfl⟩
  obtain ⟨e0, e1, -, -, -⟩ := idx_facts45 t
  refine ⟨t, (flush0_4 t).mpr (by omega), ?_⟩
  rw [mem_blk4]
  intro a
  match a with
  | ⟨0, _⟩ =>
    show win0_4.index t 0 * 2048 ≤ (i 0).val ∧ (i 0).val < win0_4.index t 0 * 2048 + 2048
    rw [e0]; omega
  | ⟨1, _⟩ =>
    show win0_4.index t 1 * 1 ≤ (i 1).val ∧ (i 1).val < win0_4.index t 1 * 1 + 1
    rw [e1]; omega

/-- Entry (a, 0, k) of the [4, 1, 8192] array lies in the block written back at point 8 a + k / 1024. -/
theorem cover5_idx (i : S4x1x8192.Idx) :
    ∃ t : Fin cfg0.N, (cfg0.win 5).flush t = true ∧ i ∈ ((cfg0.win 5).blk t).view.set := by
  have hN : cfg0.N = 32 := N_0
  have hi0 : (i 0).val < 4 := (i 0).isLt
  have hi1 : (i 1).val < 1 := (i 1).isLt
  have hi2 : (i 2).val < 8192 := (i 2).isLt
  obtain ⟨t, htv⟩ : ∃ t : Fin cfg0.N, t.val = 8 * (i 0).val + (i 2).val / 1024 := ⟨⟨_, by rw [hN]; omega⟩, rfl⟩
  obtain ⟨-, -, e0, e1, e2⟩ := idx_facts45 t
  refine ⟨t, flush0_5 t, ?_⟩
  rw [mem_blk5]
  intro a
  match a with
  | ⟨0, _⟩ =>
    show win0_5.index t 0 * 1 ≤ (i 0).val ∧ (i 0).val < win0_5.index t 0 * 1 + 1
    rw [e0]; omega
  | ⟨1, _⟩ =>
    show win0_5.index t 1 * 1 ≤ (i 1).val ∧ (i 1).val < win0_5.index t 1 * 1 + 1
    rw [e1]; omega
  | ⟨2, _⟩ =>
    show win0_5.index t 2 * 1024 ≤ (i 2).val ∧ (i 2).val < win0_5.index t 2 * 1024 + 1024
    rw [e2]; omega

/-- The blocks written back through window 4 cover its array (stated at the array's own index type on device c). -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set :=
  cover4_idx i

/-- The blocks written back through window 5 cover its array (stated at the array's own index type on device c). -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set :=
  cover5_idx i

/-- Where an element of point t's block of window 4 sits in the [8192, 1] array: row 2048 (t / 8) + its row, its column. -/
theorem emb4 (t : Fin cfg0.N) (y : ((cfg0.win 4).xblock (cfg0.grid.coords t)).Idx) :
    ((((cfg0.win 4).blk t).view.emb y : S8192x1.Idx) 0).val = 2048 * (t.val / 8) + ((y : S2048x1.Idx) 0).val
    ∧ ((((cfg0.win 4).blk t).view.emb y : S8192x1.Idx) 1).val = ((y : S2048x1.Idx) 1).val := by
  obtain ⟨e0, e1, -, -, -⟩ := idx_facts45 t
  constructor
  · show win0_4.index t 0 * 2048 + 1 * ((y : S2048x1.Idx) 0).val = _
    rw [e0]; omega
  · show win0_4.index t 1 * 1 + 1 * ((y : S2048x1.Idx) 1).val = _
    rw [e1]; omega

/-- Where an element of point t's block of window 5 sits in the [4, 1, 8192] array: plane t / 8 plus its own (zero)
    first coordinate, its second coordinate, and 1024 (t % 8) + its third coordinate. -/
theorem emb5 (t : Fin cfg0.N) (y : ((cfg0.win 5).xblock (cfg0.grid.coords t)).Idx) :
    ((((cfg0.win 5).blk t).view.emb y : S4x1x8192.Idx) 0).val = t.val / 8 + ((y : S1x1x1024.Idx) 0).val
    ∧ ((((cfg0.win 5).blk t).view.emb y : S4x1x8192.Idx) 1).val = ((y : S1x1x1024.Idx) 1).val
    ∧ ((((cfg0.win 5).blk t).view.emb y : S4x1x8192.Idx) 2).val = 1024 * (t.val % 8) + ((y : S1x1x1024.Idx) 2).val := by
  obtain ⟨-, -, e0, e1, e2⟩ := idx_facts45 t
  refine ⟨?_, ?_, ?_⟩
  · show win0_5.index t 0 * 1 + 1 * ((y : S1x1x1024.Idx) 0).val = _
    rw [e0]; omega
  · show win0_5.index t 1 * 1 + 1 * ((y : S1x1x1024.Idx) 1).val = _
    rw [e1]; omega
  · show win0_5.index t 2 * 1024 + 1 * ((y : S1x1x1024.Idx) 2).val = _
    rw [e2]; omega

end Cert.Chamfer.K

end
-- ==== Proof.Final.lean ====
/-
  The two output arrays after the run, entry by entry. Every row of the row-minimum array lies in the block its row of
  tiles writes back after its last tile, so entry (n, 0) is the greatest lower bound, over all 8192 points of the second
  cloud, of the expanded squared distances from point n of the first. Every entry (a, 0, mm) of the column-minimum
  array lies in the block of tile (a, mm / 1024), so it is the greatest lower bound over the 2048 points n of the first
  cloud with n / 2048 = a.
-/
import proofs.«124197_j32186484916784_2_alg».proof.Proof.Accum
import proofs.«124197_j32186484916784_2_alg».proof.Proof.Cover

noncomputable section

open Idealize.ShloMosaic Idealize.ShloMosaic.TcCoe Idealize.SL.Sem Idealize.ShloMosaic.ValueIdx
open Cert.Lib.MinOn
open Idealize.ShloMosaic.Pipeline (Dat)

namespace Cert.Chamfer.K

open Cert.KernelIdeal Cert.KernelIdeal.Gen

variable (m : (ℓ : Loc nD τ sig) → Buf (Elt Ideal) ℓ)

/-- The row-minimum array after the run. -/
theorem arr4_isMin (c : Dev nD) (n : Fin 8192) :
    IsMinOn (fun _ : Fin 8192 => True) (fun mm => gram (cloudP m c) (cloudL m c) n mm)
      (((dats m 0 c).arrAt 4 cfg0.N : S8192x1.Idx → EReal) (ix2 n (0 : Fin 1))) := by
  refine (dats m 0 c).arrAt_forall_of_cover 4
    (fun (i : S8192x1.Idx) (v : EReal) =>
      IsMinOn (fun _ : Fin 8192 => True) (fun mm => gram (cloudP m c) (cloudL m c) (i 0) mm) v)
    (fun t hf y => ?_) (cover4 c) (ix2 n (0 : Fin 1))
  have h7 : t.val % 8 = 7 := (flush0_4 t).mp hf
  show IsMinOn _ _ ((cfg0.win 4).cut (grid0.coords t) ((dats m 0 c).after 4 t) y)
  rw [after0_4]
  exact rowAcc_last m c t h7 y _ (emb4 t y).1

/-- The column-minimum array after the run. -/
theorem arr5_isMin (c : Dev nD) (a : Fin 4) (mm : Fin 8192) :
    IsMinOn (fun n : Fin 8192 => n.val / 2048 = a.val) (fun n => gram (cloudP m c) (cloudL m c) n mm)
      (((dats m 0 c).arrAt 5 cfg0.N : S4x1x8192.Idx → EReal) (ix3 a (0 : Fin 1) mm)) := by
  refine (dats m 0 c).arrAt_forall_of_cover 5
    (fun (i : S4x1x8192.Idx) (v : EReal) =>
      IsMinOn (fun n : Fin 8192 => n.val / 2048 = (i 0).val) (fun n => gram (cloudP m c) (cloudL m c) n (i 2)) v)
    (fun t hf y => ?_) (cover5 c) (ix3 a (0 : Fin 1) mm)
  show IsMinOn _ _ ((cfg0.win 5).cut (grid0.coords t) ((dats m 0 c).after 5 t) y)
  rw [after0_5]
  exact colTile m c t y _ _ (emb5 t y).1 (emb5 t y).2.2

end Cert.Chamfer.K

end
-- ==== Proof.Tail.lean ====
/-
  The kernel program's host operations after its pipeline region, read against the common definitions: from the two
  arrays the region leaves — one entry per point of the first cloud, and four partial minima per point of the second —
  the row side clamps below at zero and takes the square root, the column side takes the minimum of the four partial
  minima first, and the result is the common tail (two means, added) of those two vectors.
-/
import proofs.«124197_j32186484916784_2_alg».proof.Proof.Gen.KernelIdeal.Frame
import proofs.«124197_j32186484916784_2_alg».proof.Proof.Spec
import Idealize.ShloMosaic.Lib.Pipeline.Value
import Idealize.ShloMosaic.Lib.Pipeline.FrameSuffix
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

namespace Cert.Chamfer.K

open Cert.Lib.MinOn

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (ρ : Dev nD → PrngReg)

/-! ## The two vectors the tail averages -/

/-- The row side: the region's first output array as a vector of 8192 entries, clamped below at zero, square root
    taken. -/
def rowVec (A4 : FVec Ideal S8192x1 .f32) : FVec Ideal S8192 .f32 :=
  Host.sqrt (maximumf (shapeCast S8192 A4 shapeCasts_S8192x1_S8192)
    (broadcastInDim S8192 ![] bcast_S_S8192 (constant (F := Ideal) S_ .f32 0x00000000#32)))

/-- The column side: the region's second output array as four rows of 8192 entries, the minimum over the four rows
    from the top element, clamped below at zero, square root taken. -/
def colVec (A5 : FVec Ideal S4x1x8192 .f32) : FVec Ideal S8192 .f32 :=
  Host.sqrt (maximumf
    (Host.reduce FloatOps.minimumf (shapeCast S4x8192 A5 shapeCasts_S4x1x8192_S4x8192)
      (constant (F := Ideal) S_ .f32 0x7F800000#32) reducesTo_S4x8192_S8192_d0 h_S_)
    (broadcastInDim S8192 ![] bcast_S_S8192 (constant (F := Ideal) S_ .f32 0x00000000#32)))

/-! ## The tail's result -/

/-- Contents that have the pipeline's arrays at A have A's fifth entry at the region's first output array. -/
theorem withArrays_out0 (c : Dev nD) (V : Valuation τ sig (Elt Ideal))
    (A : (w : Fin 6) → Buf (Elt Ideal) ((spec0 w).arr.view.loc (c.tc : Thread nD τ))) :
    Pipeline.withArrays spec0 c V A (Proc.devRef .tc main_v7_0) = A 4 :=
  Pipeline.withArrays_arr spec0 launch0.win.arr_inj c V A 4

/-- And A's sixth entry at the region's second output array. -/
theorem withArrays_out1 (c : Dev nD) (V : Valuation τ sig (Elt Ideal))
    (A : (w : Fin 6) → Buf (Elt Ideal) ((spec0 w).arr.view.loc (c.tc : Thread nD τ))) :
    Pipeline.withArrays spec0 c V A (Proc.devRef .tc main_v7_1) = A 5 :=
  Pipeline.withArrays_arr spec0 launch0.win.arr_inj c V A 5

/-- From any contents with the pipeline's arrays at A, the operations after the region leave at the program's result
    the common tail of the row side of A's fifth entry and the column side of its sixth. -/
theorem tail_of (c : Dev nD) (V : Valuation τ sig (Elt Ideal))
    (A : (w : Fin 6) → Buf (Elt Ideal) ((spec0 w).arr.view.loc (c.tc : Thread nD τ))) :
    StableHlo.after (hostOps1 (F := Ideal)) (Pipeline.withArrays spec0 c V A) (Proc.devRef .tc main_v21)
      = Cert.Chamfer.total Facts₀.reducesTo_S8192_S_d0 Facts₀.h_S_ (rowVec (A 4)) (colVec (A 5)) := by
  after_results
  rw [withArrays_out0, withArrays_out1]
  rfl

/-- The program's result after the region and the operations that follow it: the common tail of the row side of the
    first output array and the column side of the second, each as the region leaves it. -/
theorem tail_eq (c : Dev nD) :
    Pipeline.afterTail₀ cfgs (dats m) 0 (V0 m) [hostOps1] c main_v21
      = Cert.Chamfer.total Facts₀.reducesTo_S8192_S_d0 Facts₀.h_S_
          (rowVec ((dats m 0 c).arrAt 4 cfg0.N)) (colVec ((dats m 0 c).arrAt 5 cfg0.N)) := by
  unfold Pipeline.afterTail₀
  exact tail_of c (V0 m c) (fun w => (dats m 0 c).arrAt w cfg0.N)

/-! ## The run -/

/-- The program's result buffer is no array of the pipeline and is not scoped. -/
theorem result_mem_rest : main_v21 ∈ Pipeline.restRefs sig spec0 :=
  Pipeline.mem_restRefs_of main_v21 rfl (by decide)

/-- The kernel program's run: from any memory with zero counters every weakly fair execution terminates with the
    result at the common tail of the two vectors above, and the argument arrays unchanged. -/
theorem run : θ_run defs (onTc (τ := τ) (main (F := Ideal))) ⟨m, fun _ => 0, ρ⟩ (fun r => ∀ c : Dev nD,
      r.2.mem ((c.tc : Thread nD τ).loc main_v21)
          = Cert.Chamfer.total Facts₀.reducesTo_S8192_S_d0 Facts₀.h_S_
              (rowVec ((dats m 0 c).arrAt 4 cfg0.N)) (colVec ((dats m 0 c).arrAt 5 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v21 result_mem_rest).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

/-! ## The two vectors at an index -/

/-- The word the minimum starts from denotes the top element. -/
theorem ofBits_top_f32 : Ideal.ofBits .f32 0x7F800000#32 = ⊤ := by simp [Ideal.ofBits, Ideal.ieee]

/-- The square root of a pointwise maximum, at an index. -/
theorem sqrt_max_apply (v z : FVec Ideal S8192 .f32) (j : S8192.Idx) :
    Host.sqrt (maximumf v z) j = Ideal.sqrt (max (v j) (z j)) := rfl

/-- The vector both sides clamp against is zero everywhere. -/
theorem zeros_apply (j : S8192.Idx) :
    broadcastInDim S8192 ![] bcast_S_S8192 (constant (F := Ideal) S_ .f32 0x00000000#32) j = (0 : EReal) :=
  Ideal.ofBits_zero_f32

/-- The first output array as a vector, at n: its entry (n, 0). -/
theorem row_apply (A4 : FVec Ideal S8192x1 .f32) (n : Fin 8192) :
    shapeCast S8192 A4 shapeCasts_S8192x1_S8192 (ix1 n) = A4 (ix2 n (0 : Fin 1)) :=
  shapeCast_apply A4 shapeCasts_S8192x1_S8192 (ix1 n) (ix2 n (0 : Fin 1)) (by
    rw [Shape.rowMajor_val_two, Shape.rowMajor_val_one]
    show n.val * 1 + 0 = n.val
    omega)

/-- Entry n of the row side: the square root of the first output array's entry (n, 0) clamped below at zero. -/
theorem rowVec_apply (A4 : FVec Ideal S8192x1 .f32) (n : Fin 8192) :
    rowVec A4 (ix1 n) = Ideal.sqrt (max (A4 (ix2 n (0 : Fin 1))) 0) := by
  unfold rowVec
  rw [sqrt_max_apply, zeros_apply, row_apply]

/-- The shape condition of the minimum over the four rows, in the form that names the inserted index. -/
theorem reduces4_d0 : S4x8192.Reduces [0] S8192 := by decide

/-- Column mm with row coordinate i inserted is (i, mm). -/
theorem lift4_d0 (i : Fin 4) (mm : Fin 8192) : reduces4_d0.lift (ix1 mm) i = ix2 i mm :=
  funext fun a => Fin.ext (by match a with | ⟨0, _⟩ => rfl | ⟨1, _⟩ => rfl)

/-- The second output array as four rows, at (i, mm): its entry (i, 0, mm). -/
theorem rows_apply (A5 : FVec Ideal S4x1x8192 .f32) (i : Fin 4) (mm : Fin 8192) :
    shapeCast S4x8192 A5 shapeCasts_S4x1x8192_S4x8192 (ix2 i mm) = A5 (ix3 i (0 : Fin 1) mm) :=
  shapeCast_apply A5 shapeCasts_S4x1x8192_S4x8192 (ix2 i mm) (ix3 i (0 : Fin 1) mm) (by
    rw [Shape.rowMajor_val_three, Shape.rowMajor_val_two]
    show (i.val * 1 + 0) * 8192 + mm.val = i.val * 8192 + mm.val
    omega)

/-- The minimum over the four rows at column mm is the fold of min from the top element over the four entries
    (i, 0, mm) of the second output array. -/
theorem col_fold (A5 : FVec Ideal S4x1x8192 .f32) (mm : Fin 8192) :
    Host.reduce FloatOps.minimumf (shapeCast S4x8192 A5 shapeCasts_S4x1x8192_S4x8192)
        (constant (F := Ideal) S_ .f32 0x7F800000#32) reducesTo_S4x8192_S8192_d0 h_S_ (ix1 mm)
      = (Finset.univ : Finset (Fin 4)).fold min ⊤ (fun i => A5 (ix3 i (0 : Fin 1) mm)) := by
  rw [Host.reduce_eq_fold_single FloatOps.minimumf _ _ reducesTo_S4x8192_S8192_d0 reduces4_d0 h_S_ (ix1 mm)]
  have hinit : constant (F := Ideal) S_ .f32 0x7F800000#32 (Shape.Idx.first h_S_) = (⊤ : EReal) := ofBits_top_f32
  rw [hinit]
  exact Finset.fold_congr fun i _ =>
    (congrArg (shapeCast S4x8192 A5 shapeCasts_S4x1x8192_S4x8192) (lift4_d0 i mm)).trans (rows_apply A5 i mm)

/-- Entry mm of the column side: the square root, clamped below at zero, of the greatest lower bound of the four
    entries (i, 0, mm) of the second output array. -/
theorem colVec_apply (A5 : FVec Ideal S4x1x8192 .f32) (mm : Fin 8192) :
    ∃ x : EReal, Cert.Lib.MinOn.IsMinOn (fun _ : Fin 4 => True) (fun i => A5 (ix3 i (0 : Fin 1) mm)) x
      ∧ colVec A5 (ix1 mm) = Ideal.sqrt (max x 0) := by
  refine ⟨(Finset.univ : Finset (Fin 4)).fold min ⊤ (fun i => A5 (ix3 i (0 : Fin 1) mm)),
    (IsMinOn.fold Finset.univ _).congr (fun k => iff_true_intro (Finset.mem_univ k)) (fun _ _ => rfl), ?_⟩
  unfold colVec
  rw [sqrt_max_apply, zeros_apply, col_fold]

end Cert.Chamfer.K

end
-- ==== Proof.Bridge.lean ====
/-
  The two programs end at the same number. Entry n of the kernel's row side is the square root of (the row minimum of
  the expanded squared distances, clamped at zero); entry n of the reference's is the minimum over the row of the square
  roots of the summed squared differences. The inputs being finite, the two squared distances are one real number, not
  negative; the square root is monotone, so it commutes with the minimum of finitely many values, and the clamp does
  nothing to a minimum of non-negative numbers. The same holds column by column, the kernel's column minimum being the
  minimum over the four row-blocks of the blocks' column minima. The means and their sum are then the same function of
  equal vectors.
-/
import proofs.«124197_j32186484916784_2_alg».proof.Proof.Dist
import proofs.«124197_j32186484916784_2_alg».proof.Proof.Finite
import proofs.«124197_j32186484916784_2_alg».proof.Proof.RefValue
import proofs.«124197_j32186484916784_2_alg».proof.Proof.Final
import proofs.«124197_j32186484916784_2_alg».proof.Proof.Tail

noncomputable section

open Idealize.ShloMosaic Idealize.ShloMosaic.TcCoe Idealize.SL.Sem Idealize.ShloMosaic.ValueIdx

namespace Cert.Chamfer

open Cert.Lib.MinOn

open Cert.KernelIdeal Cert.KernelIdeal.Gen

variable (m : (ℓ : Loc nD τ sig) → Buf (Elt Ideal) ℓ)

/-- Row by row: the kernel's clamped, rooted row minima are the reference's row minima of the distances. -/
theorem rows_eq (hpre : Cert.Pre_KernelIdeal m) (c : Dev nD) :
    K.rowVec ((dats m 0 c).arrAt 4 cfg0.N)
      = Cert.ReferenceIdeal.Read.val_main_v8 (F := Ideal) (K.cloudP m c) (K.cloudL m c) := by
  obtain ⟨hP, hL⟩ := finite_of_pre_kernelIdeal m hpre c
  funext j
  obtain ⟨n, rfl⟩ : ∃ n : Fin 8192, j = ix1 n := ⟨j 0, eq_ix1 j⟩
  rw [K.rowVec_apply]
  exact sqrt_max_isMinOn (fun mm => gram (K.cloudP m c) (K.cloudL m c) n mm) (fun mm => dist2 (K.cloudP m c) (K.cloudL m c) n mm)
    (fun mm => gram_eq_dist2 _ _ hP hL n mm) (fun mm => dist2_nonneg _ _ hP hL n mm)
    (K.arr4_isMin m c n) (Ref.ref_row (K.cloudP m c) (K.cloudL m c) n)

/-- Column by column: the minimum over the four row-blocks of the blocks' column minima is the column minimum. -/
theorem cols_eq (hpre : Cert.Pre_KernelIdeal m) (c : Dev nD) :
    K.colVec ((dats m 0 c).arrAt 5 cfg0.N)
      = Cert.ReferenceIdeal.Read.val_main_v11 (F := Ideal) (K.cloudP m c) (K.cloudL m c) := by
  obtain ⟨hP, hL⟩ := finite_of_pre_kernelIdeal m hpre c
  funext j
  obtain ⟨mm, rfl⟩ : ∃ mm : Fin 8192, j = ix1 mm := ⟨j 0, eq_ix1 j⟩
  obtain ⟨x, hx, hcol⟩ := K.colVec_apply ((dats m 0 c).arrAt 5 cfg0.N) mm
  rw [hcol]
  have hx' : IsMinOn (fun _ : Fin 8192 => True) (fun n => gram (K.cloudP m c) (K.cloudL m c) n mm) x :=
    (IsMinOn.iUnion (fun a _ => K.arr5_isMin m c a mm) hx).congr
      (fun n => ⟨fun _ => trivial, fun _ => ⟨⟨n.val / 2048, by have := n.isLt; omega⟩, trivial, rfl⟩⟩) (fun _ _ => rfl)
  exact sqrt_max_isMinOn (fun n => gram (K.cloudP m c) (K.cloudL m c) n mm) (fun n => dist2 (K.cloudP m c) (K.cloudL m c) n mm)
    (fun n => gram_eq_dist2 _ _ hP hL n mm) (fun n => dist2_nonneg _ _ hP hL n mm)
    hx' (Ref.ref_col (K.cloudP m c) (K.cloudL m c) mm)

/-- So the kernel's result is the reference's, of the same two clouds. -/
theorem result_eq (hpre : Cert.Pre_KernelIdeal m) (c : Dev nD) :
    total Cert.KernelIdeal.Facts₀.reducesTo_S8192_S_d0 Cert.KernelIdeal.Facts₀.h_S_
        (K.rowVec ((dats m 0 c).arrAt 4 cfg0.N)) (K.colVec ((dats m 0 c).arrAt 5 cfg0.N))
      = total Cert.ReferenceIdeal.Facts₀.reducesTo_S8192_S_d0 Cert.ReferenceIdeal.Facts₀.h_S_
          (Cert.ReferenceIdeal.Read.val_main_v8 (F := Ideal) (K.cloudP m c) (K.cloudL m c))
          (Cert.ReferenceIdeal.Read.val_main_v11 (F := Ideal) (K.cloudP m c) (K.cloudL m c)) := by
  rw [rows_eq m hpre c, cols_eq m hpre c]

end Cert.Chamfer

end
-- ==== Proof.lean ====
/-
  The Chamfer loss of two clouds of 8192 points of R^3: the mean over the first cloud of each point's distance to its
  nearest point of the second, plus the same with the clouds exchanged. The kernel takes the squared distances of a
  2048 x 1024 tile of pairs by the Gram identity |p|^2 + |l|^2 - 2 p.l, keeps a running row minimum along each row of 8
  tiles and writes each tile's column minima out, and only then - on 8192 + 8192 numbers - clamps at zero, takes square
  roots and means; the reference takes the square root of the summed squared differences of every pair first and the
  minima after. Over the extended reals, for finite inputs, the two are the same number:

    frame_Kernel, frame_KernelIdeal - the generated frame runs of the kernel's program at both instances;
    frame_ReferenceIdeal - the reference's generated run with its result dropped;
    preserves_Kernel_KernelIdeal - the idealization rewrote nothing: True;
    algebraic_KernelIdeal_ReferenceIdeal - the kernel's run ends with its result at the total of its two output arrays'
      clamped, rooted minima, the reference's at the total of its row and column minima of the distances, of clouds
      that agree; the two totals are equal (the finiteness of the inputs is used for the Gram identity).
-/
import proofs.«124197_j32186484916784_2_alg».proof.Defs
import proofs.«124197_j32186484916784_2_alg».proof.Proof.Gen.Kernel
import proofs.«124197_j32186484916784_2_alg».proof.Proof.Gen.Kernel.Skeleton
import proofs.«124197_j32186484916784_2_alg».proof.Proof.Gen.Kernel.Launch
import proofs.«124197_j32186484916784_2_alg».proof.Proof.Gen.Kernel.Points
import proofs.«124197_j32186484916784_2_alg».proof.Proof.Gen.Kernel.Frame
import proofs.«124197_j32186484916784_2_alg».proof.Proof.Gen.KernelIdeal
import proofs.«124197_j32186484916784_2_alg».proof.Proof.Gen.KernelIdeal.Skeleton
import proofs.«124197_j32186484916784_2_alg».proof.Proof.Gen.KernelIdeal.Launch
import proofs.«124197_j32186484916784_2_alg».proof.Proof.Gen.KernelIdeal.Points
import proofs.«124197_j32186484916784_2_alg».proof.Proof.Gen.KernelIdeal.Frame
import proofs.«124197_j32186484916784_2_alg».proof.Proof.Gen.ReferenceIdeal
import proofs.«124197_j32186484916784_2_alg».proof.Proof.Gen.ReferenceIdeal.Run
import proofs.«124197_j32186484916784_2_alg».proof.Proof.Gen.ReferenceIdeal.Read
import proofs.«124197_j32186484916784_2_alg».proof.Proof.Gen.Pre_finite_inputs
import proofs.«124197_j32186484916784_2_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, with equal results: the kernel's total of its two output arrays' clamped, rooted minima is the
    reference's total of the minima of the distances, the clouds agreeing and being finite. -/
theorem algebraic : Cert.algebraic_KernelIdeal_ReferenceIdeal := by
  intro m ρ m' ρ' hpre hagree
  refine ⟨_, Cert.Chamfer.K.run m ρ, ?_⟩
  refine (θ_run Cert.ReferenceIdeal.defs _ _).mono (fun _ h c => ⟨(h c).1.trans ?_, (h c).2⟩) (Cert.Chamfer.Ref.ref_run m' ρ')
  rw [(hagree c).1, (hagree c).2]
  exact (Cert.Chamfer.result_eq m hpre c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
